-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S4000 : Shape := ⟨1, ![4000]⟩
abbrev S4000x1 : Shape := ⟨2, ![4000, 1]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 116
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S1x128, .f32⟩
  | .hbm, ⟨114, _⟩ => ⟨S1x64, .f32⟩
  | .hbm, ⟨115, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S1x128, .f32⟩
  | .local _ .vmem, ⟨38, _⟩ => ⟨S128x64, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg4_0 : Ref sig .tc := ⟨.vmem, 39, rfl⟩
abbrev cc6_stg5_0 : Ref sig .tc := ⟨.vmem, 40, rfl⟩
abbrev cc6_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem4_0 : DmaSem sig := 39
abbrev cc6_sem5_0 : DmaSem sig := 40
abbrev cc6_sem5_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x64.size a ≤ S100000x64.size a
  hwx6_5 : ∀ i : grid6.Coords, EltTy.bits .f32 = 32 ∨ (Rect.block (s := S100000x64) S4000x64.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v64) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v82) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S4000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S128x64, .f32⟩
  | 15 => ⟨S64, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x1, .f32⟩
  | 21 => ⟨S100000x1, .f32⟩
  | 22 => ⟨S100000x1, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S100000x128, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x128, .f32⟩
  | 38 => ⟨S1700000x1, .f32⟩
  | 39 => ⟨S1700000x128, .f32⟩
  | 40 => ⟨S1700000x128, .f32⟩
  | 41 => ⟨S_, .f32⟩
  | 42 => ⟨S100000x128, .f32⟩
  | 43 => ⟨S1700000x1, .i32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S100000x64, .f32⟩
  | 56 => ⟨S1x64, .f32⟩
  | 57 => ⟨S100000x64, .f32⟩
  | 58 => ⟨S100000x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S100000x64, .f32⟩
  | 66 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call0_cst : Ref sig .tc := ⟨.hbm, 72, rfl⟩
abbrev main_call0_v0 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_15 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call1_cst : Ref sig .tc := ⟨.hbm, 124, rfl⟩
abbrev main_call1_v0 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_cst_19 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_21 : Ref sig .tc := ⟨.hbm, 157, rfl⟩
abbrev main_v114 : Ref sig .tc := ⟨.hbm, 158, rfl⟩
abbrev main_v115 : Ref sig .tc := ⟨.hbm, 159, rfl⟩
abbrev main_c_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_23 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_call2_cst : Ref sig .tc := ⟨.hbm, 176, rfl⟩
abbrev main_call2_v0 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_24 : Ref sig .tc := ⟨.hbm, 189, rfl⟩
abbrev main_v141 : Ref sig .tc := ⟨.hbm, 190, rfl⟩
abbrev main_v142 : Ref sig .tc := ⟨.hbm, 191, rfl⟩
abbrev main_cst_25 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Keep.lean ====
/-
  Which references each stretch of host operations of the kernel program writes, and hence which buffers every segment of
  @main leaves as it found them: a buffer that no operation of a stretch writes, and that is not one of a region's arrays,
  holds after the segment what it held before.
-/
import proofs.«128363_j22308060135655_1_alg».proof.Proof.Gen.KernelIdeal.Frame
import Idealize.ShloMosaic.Lib.StableHlo.Run
import Idealize.ShloMosaic.PureOps.Ideal

set_option maxRecDepth 16384

noncomputable section

namespace Cert.KValue

open Cert.KernelIdeal Cert.KernelIdeal.Gen
open Idealize.ShloMosaic Idealize.ShloMosaic.TcCoe Idealize.SL.Sem Idealize.ShloMosaic.StableHlo

/-- The references the operations of stretch 0 write. -/
abbrev hostOps0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]
theorem hostOps0_writes : (hostOps0 : List (HloOp τ sig (Elt Ideal))).Forall fun op => op.writes ⊆ (hostOps0_W.map (Proc.devRef (τ := τ) .tc)).toFinset := by
  decide

/-- The references the operations of stretch 1 write. -/
abbrev hostOps1_W : List (Ref sig .tc) := [main_c_5, main_v30, main_v31, main_c_6, main_v32, main_v33, main_v34, main_v35, main_v36, main_v37, main_v38, main_v39, main_cst_7, main_v40, main_v41, main_v42, main_v43, main_v44, main_v45]
theorem hostOps1_writes : (hostOps1 : List (HloOp τ sig (Elt Ideal))).Forall fun op => op.writes ⊆ (hostOps1_W.map (Proc.devRef (τ := τ) .tc)).toFinset := by
  decide

/-- The references the operations of stretch 3 write. -/
abbrev hostOps3_W : List (Ref sig .tc) := [main_c_8, main_v48, main_v49, main_c_9, main_v50, main_v51, main_v52, main_v53, main_v54, main_v55, main_v56, main_v57, main_cst_10, main_v58, main_v59, main_v60, main_v61, main_v62, main_v63]
theorem hostOps3_writes : (hostOps3 : List (HloOp τ sig (Elt Ideal))).Forall fun op => op.writes ⊆ (hostOps3_W.map (Proc.devRef (τ := τ) .tc)).toFinset := by
  decide

/-- The references the operations of stretch 5 write. -/
abbrev hostOps5_W : List (Ref sig .tc) := [main_c_11, main_v66, main_v67, main_c_12, main_v68, main_v69, main_v70, main_v71, main_v72, main_v73, main_v74, main_v75, main_cst_13, main_v76, main_v77, main_v78, main_v79]
theorem hostOps5_writes : (hostOps5 : List (HloOp τ sig (Elt Ideal))).Forall fun op => op.writes ⊆ (hostOps5_W.map (Proc.devRef (τ := τ) .tc)).toFinset := by
  decide

/-- The references the operations of stretch 6 write. -/
abbrev hostOps6_W : List (Ref sig .tc) := [main_v81, main_v82]
theorem hostOps6_writes : (hostOps6 : List (HloOp τ sig (Elt Ideal))).Forall fun op => op.writes ⊆ (hostOps6_W.map (Proc.devRef (τ := τ) .tc)).toFinset := by
  decide

variable (m : (ℓ : Loc nD τ sig) → Buf (Elt Ideal) ℓ) (ρ : Dev nD → PrngReg) (c : Dev nD)

/-! ## Segment by segment -/

/-- Stretch 0 leaves every buffer it does not write. -/
theorem keep1 (b : Ref sig .tc) (h : b ∉ hostOps0_W) :
    W1 m ρ c (Proc.devRef .tc b) = W0 m ρ c (Proc.devRef .tc b) :=
  after_of_writes_sub hostOps0 _ hostOps0_writes h
/-- Region 0 leaves every buffer that is not one of its arrays. -/
theorem keep2 (b : Ref sig .tc) (h : ∀ w, Pipeline.arrRef spec0 w ≠ b) :
    W2 m ρ c (Proc.devRef .tc b) = W1 m ρ c (Proc.devRef .tc b) :=
  W2_of_ne m ρ c b h
/-- Stretch 1 leaves every buffer it does not write. -/
theorem keep3 (b : Ref sig .tc) (h : b ∉ hostOps1_W) :
    W3 m ρ c (Proc.devRef .tc b) = W2 m ρ c (Proc.devRef .tc b) :=
  after_of_writes_sub hostOps1 _ hostOps1_writes h
/-- Region 1 leaves every buffer that is not one of its arrays. -/
theorem keep4 (b : Ref sig .tc) (h : ∀ w, Pipeline.arrRef spec1 w ≠ b) :
    W4 m ρ c (Proc.devRef .tc b) = W3 m ρ c (Proc.devRef .tc b) :=
  W4_of_ne m ρ c b h
/-- Region 2 leaves every buffer that is not one of its arrays. -/
theorem keep5 (b : Ref sig .tc) (h : ∀ w, Pipeline.arrRef spec2 w ≠ b) :
    W5 m ρ c (Proc.devRef .tc b) = W4 m ρ c (Proc.devRef .tc b) :=
  W5_of_ne m ρ c b h
/-- Stretch 3 leaves every buffer it does not write. -/
theorem keep6 (b : Ref sig .tc) (h : b ∉ hostOps3_W) :
    W6 m ρ c (Proc.devRef .tc b) = W5 m ρ c (Proc.devRef .tc b) :=
  after_of_writes_sub hostOps3 _ hostOps3_writes h
/-- Region 3 leaves every buffer that is not one of its arrays. -/
theorem keep7 (b : Ref sig .tc) (h : ∀ w, Pipeline.arrRef spec3 w ≠ b) :
    W7 m ρ c (Proc.devRef .tc b) = W6 m ρ c (Proc.devRef .tc b) :=
  W7_of_ne m ρ c b h
/-- Region 4 leaves every buffer that is not one of its arrays. -/
theorem keep8 (b : Ref sig .tc) (h : ∀ w, Pipeline.arrRef spec4 w ≠ b) :
    W8 m ρ c (Proc.devRef .tc b) = W7 m ρ c (Proc.devRef .tc b) :=
  W8_of_ne m ρ c b h
/-- Stretch 5 leaves every buffer it does not write. -/
theorem keep9 (b : Ref sig .tc) (h : b ∉ hostOps5_W) :
    W9 m ρ c (Proc.devRef .tc b) = W8 m ρ c (Proc.devRef .tc b) :=
  after_of_writes_sub hostOps5 _ hostOps5_writes h
/-- Region 5 leaves every buffer that is not one of its arrays. -/
theorem keep10 (b : Ref sig .tc) (h : ∀ w, Pipeline.arrRef spec5 w ≠ b) :
    W10 m ρ c (Proc.devRef .tc b) = W9 m ρ c (Proc.devRef .tc b) :=
  W10_of_ne m ρ c b h
/-- Stretch 6 leaves every buffer it does not write. -/
theorem keep11 (b : Ref sig .tc) (h : b ∉ hostOps6_W) :
    W11 m ρ c (Proc.devRef .tc b) = W10 m ρ c (Proc.devRef .tc b) :=
  after_of_writes_sub hostOps6 _ hostOps6_writes h
/-- Region 6 leaves every buffer that is not one of its arrays. -/
theorem keep12 (b : Ref sig .tc) (h : ∀ w, Pipeline.arrRef spec6 w ≠ b) :
    W12 m ρ c (Proc.devRef .tc b) = W11 m ρ c (Proc.devRef .tc b) :=
  W12_of_ne m ρ c b h

/-! ## From the launch: a buffer no segment up to a boundary touches still holds its launch contents there -/

theorem launched1 (b : Ref sig .tc) (h1 : b ∉ hostOps0_W) :
    W1 m ρ c (Proc.devRef .tc b) = m ((c : Thread nD τ).loc b) :=
  keep1 m ρ c b h1
theorem launched2 (b : Ref sig .tc) (h1 : b ∉ hostOps0_W) (h2 : ∀ w, Pipeline.arrRef spec0 w ≠ b) :
    W2 m ρ c (Proc.devRef .tc b) = m ((c : Thread nD τ).loc b) :=
  (keep2 m ρ c b h2).trans (launched1 m ρ c b h1)
theorem launched3 (b : Ref sig .tc) (h1 : b ∉ hostOps0_W) (h2 : ∀ w, Pipeline.arrRef spec0 w ≠ b) (h3 : b ∉ hostOps1_W) :
    W3 m ρ c (Proc.devRef .tc b) = m ((c : Thread nD τ).loc b) :=
  (keep3 m ρ c b h3).trans (launched2 m ρ c b h1 h2)
theorem launched4 (b : Ref sig .tc) (h1 : b ∉ hostOps0_W) (h2 : ∀ w, Pipeline.arrRef spec0 w ≠ b) (h3 : b ∉ hostOps1_W) (h4 : ∀ w, Pipeline.arrRef spec1 w ≠ b) :
    W4 m ρ c (Proc.devRef .tc b) = m ((c : Thread nD τ).loc b) :=
  (keep4 m ρ c b h4).trans (launched3 m ρ c b h1 h2 h3)
theorem launched5 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) :
    W5 m ρ c (Proc.devRef .tc b) = m ((c : Thread nD τ).loc b) :=
  (keep5 m ρ c b h5).trans (launched4 m ρ c b h1 h2 h3 h4)
theorem launched6 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) :
    W6 m ρ c (Proc.devRef .tc b) = m ((c : Thread nD τ).loc b) :=
  (keep6 m ρ c b h6).trans (launched5 m ρ c b h1 h2 h3 h4 h5)
theorem launched7 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) (h7 : ∀ w, Pipeline.arrRef spec3 w ≠ b) :
    W7 m ρ c (Proc.devRef .tc b) = m ((c : Thread nD τ).loc b) :=
  (keep7 m ρ c b h7).trans (launched6 m ρ c b h1 h2 h3 h4 h5 h6)
theorem launched8 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) (h7 : ∀ w, Pipeline.arrRef spec3 w ≠ b) (h8 : ∀ w, Pipeline.arrRef spec4 w ≠ b) :
    W8 m ρ c (Proc.devRef .tc b) = m ((c : Thread nD τ).loc b) :=
  (keep8 m ρ c b h8).trans (launched7 m ρ c b h1 h2 h3 h4 h5 h6 h7)
theorem launched9 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) (h7 : ∀ w, Pipeline.arrRef spec3 w ≠ b) (h8 : ∀ w, Pipeline.arrRef spec4 w ≠ b) (h9 : b ∉ hostOps5_W) :
    W9 m ρ c (Proc.devRef .tc b) = m ((c : Thread nD τ).loc b) :=
  (keep9 m ρ c b h9).trans (launched8 m ρ c b h1 h2 h3 h4 h5 h6 h7 h8)
theorem launched10 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) (h7 : ∀ w, Pipeline.arrRef spec3 w ≠ b) (h8 : ∀ w, Pipeline.arrRef spec4 w ≠ b) (h9 : b ∉ hostOps5_W) (h10 : ∀ w, Pipeline.arrRef spec5 w ≠ b) :
    W10 m ρ c (Proc.devRef .tc b) = m ((c : Thread nD τ).loc b) :=
  (keep10 m ρ c b h10).trans (launched9 m ρ c b h1 h2 h3 h4 h5 h6 h7 h8 h9)
theorem launched11 (b : Ref sig .tc) (h1 : b ∉ hostOps0_W) (h2 : ∀ w, Pipeline.arrRef spec0 w ≠ b) (h3 : b ∉ hostOps1_W) (h4 : ∀ w, Pipeline.arrRef spec1 w ≠ b) (h5 : ∀ w, Pipeline.arrRef spec2 w ≠ b) (h6 : b ∉ hostOps3_W) (h7 : ∀ w, Pipeline.arrRef spec3 w ≠ b) (h8 : ∀ w, Pipeline.arrRef spec4 w ≠ b) (h9 : b ∉ hostOps5_W) (h10 : ∀ w, Pipeline.arrRef spec5 w ≠ b) (h11 : b ∉ hostOps6_W) :
    W11 m ρ c (Proc.devRef .tc b) = m ((c : Thread nD τ).loc b) :=
  (keep11 m ρ c b h11).trans (launched10 m ρ c b h1 h2 h3 h4 h5 h6 h7 h8 h9 h10)

end Cert.KValue

end
-- ==== Proof.Rows.lean ====
/-
  Row functions for a graph network whose dense stages act on one node (one row of a matrix) at a time.
  A matrix [a, k] is read by its rows (`rowOf`); every dense stage of the network is a function of ONE row and of small
  resident operands (a weight matrix, bias / scale rows):
    * `mmRow W u`            — the row u · W;
    * `biasRelu b u`         — max(u + b, 0) entry by entry;
    * `lnRow b g be u`       — with h = max(u + b, 0): mean μ = (Σ h) / 128, deviations d = h − μ, variance
                               v = (Σ d·d) / 128, and the result g · d · rsqrt(v + ε) + be (a layer norm of the rectified row);
    * `headRow W₁ b₁ W₂ b₂ u` — logistic((u · W₁ + b₁) · W₂ + b₂).
  The numbers 0, 128, ε are kept as the extended reals their f32 words denote (`Ideal.ofBits`): the same words occur on
  both sides of every comparison, so they are never evaluated.
-/
import Idealize.ShloMosaic.Lib.ValueIdx
import Idealize.ShloMosaic.Lib.Pipeline.Value
import Idealize.ShloMosaic.PureOps.Ideal.Laws

noncomputable section

open scoped BigOperators

namespace Cert.Rows

open Idealize.ShloMosaic Idealize.ShloMosaic.ValueIdx

/-- Row r of a matrix. -/
def rowOf {a k : ℕ} (x : (⟨2, ![a, k]⟩ : Shape).Idx → EReal) (r : Fin a) : Fin k → EReal := fun j => x (ix2 r j)

/-- A one-row matrix as a function of its column. -/
def row1 {n : ℕ} (b : (⟨2, ![1, n]⟩ : Shape).Idx → EReal) : Fin n → EReal := fun q => b (ix2 (0 : Fin 1) q)

/-- A vector as a function of its position. -/
def vec {n : ℕ} (b : (⟨1, ![n]⟩ : Shape).Idx → EReal) : Fin n → EReal := fun q => b (ix1 q)

/-- A matrix as a function of its row and column. -/
def mat {k n : ℕ} (W : (⟨2, ![k, n]⟩ : Shape).Idx → EReal) : Fin k → Fin n → EReal := fun j q => W (ix2 j q)

/-- The value of the all-zero f32 word. -/
def zeroW : EReal := Ideal.ofBits .f32 0x00000000#32
/-- The value of the f32 word of 128. -/
def w128 : EReal := Ideal.ofBits .f32 0x43000000#32
/-- The value of the f32 word of the variance guard ε. -/
def epsW : EReal := Ideal.ofBits .f32 0x3727C5AC#32

/-- The row u · W. -/
def mmRow {k n : ℕ} (W : Fin k → Fin n → EReal) (u : Fin k → EReal) : Fin n → EReal := fun q => ∑ j : Fin k, u j * W j q

/-- max(u + b, 0), entry by entry. -/
def biasRelu {n : ℕ} (b u : Fin n → EReal) : Fin n → EReal := fun q => max (u q + b q) zeroW

/-- The mean of a row of 128 entries. -/
def mean128 (h : Fin 128 → EReal) : EReal := Ideal.div (∑ k : Fin 128, h k) w128

/-- Layer norm of the rectified, biased row. -/
def lnRow (b g be u : Fin 128 → EReal) : Fin 128 → EReal :=
  fun q => g q * (biasRelu b u q - mean128 (biasRelu b u))
      * Ideal.rsqrt (mean128 (fun k => (biasRelu b u k - mean128 (biasRelu b u)) * (biasRelu b u k - mean128 (biasRelu b u))) + epsW)
    + be q

/-- The two-layer head with its logistic. -/
def headRow (W₁ : Fin 128 → Fin 128 → EReal) (b₁ : Fin 128 → EReal) (W₂ : Fin 128 → Fin 64 → EReal) (b₂ : Fin 64 → EReal)
    (u : Fin 128 → EReal) : Fin 64 → EReal :=
  fun q => Ideal.logistic (mmRow W₂ (fun j => mmRow W₁ u j + b₁ j) q + b₂ q)

/-- Two matrices with equal rows are equal. -/
theorem ext_rows {a k : ℕ} {x y : (⟨2, ![a, k]⟩ : Shape).Idx → EReal} (h : ∀ r : Fin a, rowOf x r = rowOf y r) : x = y := by
  funext i
  obtain ⟨p, q, rfl⟩ : ∃ (p : Fin a) (q : Fin k), i = ix2 p q := ⟨i 0, i 1, eq_ix2 i⟩
  exact congrFun (h p) q

end Cert.Rows

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.RowsKMM.lean ====
/-
  The matrix-product kernels, one row at a time: row p of what the body stores is row p of its input block times the
  resident weight matrix (the narrowing of both operands to bf16 is the identity on extended reals, and the product goes
  into a zero accumulator).
-/
import proofs.«128363_j22308060135655_1_alg».proof.Proof.Gen.KernelIdeal.Skeleton
import proofs.«128363_j22308060135655_1_alg».proof.Proof.Rows
import proofs.«128363_j22308060135655_1_alg».proof.Proof.LibMatmul
import proofs.«128363_j22308060135655_1_alg».proof.Proof.LibRowReduce
import proofs.«128363_j22308060135655_1_alg».proof.Proof.LibColumns
import Idealize.ShloMosaic.Lib.ValueLayout

noncomputable section

open scoped BigOperators

namespace Cert.KRows

open Cert.KernelIdeal Cert.KernelIdeal.Gen Cert.Rows Idealize.ShloMosaic Idealize.ShloMosaic.ValueIdx

theorem k0_row (x : Vec Ideal S4000x128 .f32) (w : Vec Ideal S128x128 .f32) (p : Fin 4000) :
    rowOf (k0_pay1 (F := Ideal) x w) p = mmRow (mat w) (rowOf x p) := by
  funext q
  show k0_pay1 (F := Ideal) x w (ix2 p q) = ∑ j : Fin 128, x (ix2 p j) * w (ix2 j q)
  unfold k0_pay1
  exact matmul_zero_ix2 dot_S4000x128_S128x128_S4000x128_1_0_0_1_n_n rfl rfl rfl rfl rfl rfl none _ _ p q

theorem k2_row (x : Vec Ideal S4000x128 .f32) (w : Vec Ideal S128x128 .f32) (p : Fin 4000) :
    rowOf (k2_pay1 (F := Ideal) x w) p = mmRow (mat w) (rowOf x p) := by
  funext q
  show k2_pay1 (F := Ideal) x w (ix2 p q) = ∑ j : Fin 128, x (ix2 p j) * w (ix2 j q)
  unfold k2_pay1
  rw [shapeCast_self]
  exact matmul_zero_ix2 dot_S4000x128_S128x128_S4000x128_1_0_0_1_n_n rfl rfl rfl rfl rfl rfl none _ _ p q

theorem k4_row (x : Vec Ideal S4000x128 .f32) (w : Vec Ideal S128x128 .f32) (p : Fin 4000) :
    rowOf (k4_pay1 (F := Ideal) x w) p = mmRow (mat w) (rowOf x p) := by
  funext q
  show k4_pay1 (F := Ideal) x w (ix2 p q) = ∑ j : Fin 128, x (ix2 p j) * w (ix2 j q)
  unfold k4_pay1
  rw [shapeCast_self]
  exact matmul_zero_ix2 dot_S4000x128_S128x128_S4000x128_1_0_0_1_n_n rfl rfl rfl rfl rfl rfl none _ _ p q

end Cert.KRows

end
-- ==== Proof.Regions0.lean ====
/-
  The three matrix-product regions (x · W1, h · W2, h · W3).
  A region's output array, after the region, is read off the 25 blocks its grid points write back: point t writes rows
  4000·t … 4000·t + 3999 (all columns), the blocks tile the array, and — every stage here being a function of one row of the
  input block and of resident operands fetched whole — block t of the result is block t of ANY array whose rows are that
  row function of the input array's rows.
-/
import proofs.«128363_j22308060135655_1_alg».proof.Proof.Gen.KernelIdeal.Frame
import proofs.«128363_j22308060135655_1_alg».proof.Proof.RowsKMM
import Idealize.ShloMosaic.Lib.Pipeline.Value
import Idealize.ShloMosaic.Lib.ValueIdx

set_option maxRecDepth 16384

noncomputable section

namespace Cert.KValue

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

private theorem hz : (![0, 0] : Fin 2 → Nat) = fun _ => 0 := funext fun a => by fin_cases a <;> rfl

variable (V : (c : Dev nD) → (b : Ref sig .tc) → Buf (Elt Ideal) ((c : Thread nD τ).loc b))

/-! ### Region 0: the array main_v29 after the region, from its blocks -/

theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Operand 1 is fetched whole at every point. -/
theorem whole0_1 (c : Dev nD) (t : Fin cfg0.N) : (iblk0 V c 1 t : S128x128.Idx → EReal) = V c main_arg2 := by
  obtain ⟨e0, e1, e2, e3, e4, e5⟩ := idx0 t
  funext z
  show V c main_arg2 (((cfg0.win 1).blk t).view.emb z) = V c main_arg2 z
  congr 1; funext a; apply Fin.ext
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- Row p of the input block of point t is row 4000·t + p of the input array. -/
theorem blockRow0 (c : Dev nD) (t : Fin cfg0.N) (p : Fin 4000) (hrow : 4000 * t.val + p.val < 100000) :
    rowOf (iblk0 V c 0 t) p = rowOf (V c main_arg0 : S100000x128.Idx → EReal) (⟨4000 * t.val + p.val, hrow⟩ : Fin 100000) := by
  obtain ⟨e0, e1, e2, e3, e4, e5⟩ := idx0 t
  funext j
  show V c main_arg0 (((cfg0.win 0).blk t).view.emb (ix2 p j)) = V c main_arg0 (ix2 (⟨4000 * t.val + p.val, hrow⟩ : Fin 100000) j)
  congr 1; funext a; apply Fin.ext
  match a with
  | ⟨0, _⟩ => show win0_0.index t (0 : Fin 2) * 4000 + 1 * p.val = 4000 * t.val + p.val; omega
  | ⟨1, _⟩ => show win0_0.index t (1 : Fin 2) * 128 + 1 * j.val = j.val; omega

/-- Entry (p, q) of the output block of point t is entry (4000·t + p, q) of the output array. -/
theorem outEmb0 (t : Fin cfg0.N) (p : Fin 4000) (q : Fin 128) (hrow : 4000 * t.val + p.val < 100000) :
    ((cfg0.win 2).blk t).view.emb (ix2 p q) = ix2 (⟨4000 * t.val + p.val, hrow⟩ : Fin 100000) q := by
  obtain ⟨e0, e1, e2, e3, e4, e5⟩ := idx0 t
  funext a; apply Fin.ext
  match a with
  | ⟨0, _⟩ => show win0_2.index t (0 : Fin 2) * 4000 + 1 * p.val = 4000 * t.val + p.val; omega
  | ⟨1, _⟩ => show win0_2.index t (1 : Fin 2) * 128 + 1 * q.val = q.val; omega

/-- What point t writes back is block t (rows 4000·t … 4000·t + 3999) of any array G whose every row is the stage's row
    function of the same row of the region's input array. -/
theorem flushed0 (c : Dev nD) (G : S100000x128.Idx → EReal)
    (hG : ∀ r : Fin 100000, rowOf G r = mmRow (mat (V c main_arg2 : S128x128.Idx → EReal)) (rowOf (V c main_arg0 : S100000x128.Idx → EReal) r))
    (t : Fin cfg0.N) :
    (dat0 (F := Ideal) V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  have hN : grid0.N = 25 := N_0
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k0_row (iblk0 V c 0 t) (iblk0 V c 1 t) p) q).trans ?_
  show _ = G (((cfg0.win 2).blk t).view.emb (ix2 p q))
  rw [outEmb0 t p q hrow]
  refine Eq.trans ?_ (congrFun (hG _) q).symm
  rw [whole0_1 V c t, blockRow0 V c t p hrow]

/-- An index of the array lies in point t's block iff each coordinate lies in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v29).slice (win0_2.rect t)).set ↔ _
  rw [View.set_slice_whole, Rect.mem_set_unit]
  exact Iff.rfl

/-- The 25 blocks of 4000 rows tile the array: row i lies in block i / 4000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have hlt : (i 0).val / 4000 < cfg0.N := by show _ < grid0.N; omega
  refine ⟨⟨(i 0).val / 4000, hlt⟩, flush0_2 _, ?_⟩
  obtain ⟨e0, e1, e2, e3, e4, e5⟩ := idx0 ⟨(i 0).val / 4000, hlt⟩
  rw [mem_blk0]
  intro a
  match a with
  | ⟨0, _⟩ => show win0_2.index ⟨(i 0).val / 4000, hlt⟩ (0 : Fin 2) * 4000 ≤ (i 0).val ∧ (i 0).val < win0_2.index ⟨(i 0).val / 4000, hlt⟩ (0 : Fin 2) * 4000 + 4000; simp only [] at *; omega
  | ⟨1, _⟩ => show win0_2.index ⟨(i 0).val / 4000, hlt⟩ (1 : Fin 2) * 128 ≤ (i 1).val ∧ (i 1).val < win0_2.index ⟨(i 0).val / 4000, hlt⟩ (1 : Fin 2) * 128 + 128; omega

/-- THE ARRAY after region 0: any array whose rows are the stage's row function of the input's rows. -/
theorem region0_value (c : Dev nD) (G : S100000x128.Idx → EReal)
    (hG : ∀ r : Fin 100000, rowOf G r = mmRow (mat (V c main_arg2 : S128x128.Idx → EReal)) (rowOf (V c main_arg0 : S100000x128.Idx → EReal) r)) :
    (dat0 (F := Ideal) V c).arrAt 2 cfg0.N = G :=
  (dat0 (F := Ideal) V c).arrAt_eq_of_cover 2 G (fun t _ => flushed0 V c G hG t) (cover0)

/-! ### Region 2: the array main_v47 after the region, from its blocks -/

theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Operand 1 is fetched whole at every point. -/
theorem whole2_1 (c : Dev nD) (t : Fin cfg2.N) : (iblk2 V c 1 t : S128x128.Idx → EReal) = V c main_arg4 := by
  obtain ⟨e0, e1, e2, e3, e4, e5⟩ := idx2 t
  funext z
  show V c main_arg4 (((cfg2.win 1).blk t).view.emb z) = V c main_arg4 z
  congr 1; funext a; apply Fin.ext
  match a with
  | ⟨0, _⟩ => show win2_1.index t (0 : Fin 2) * 128 + 1 * (z 0).val = (z 0).val; omega
  | ⟨1, _⟩ => show win2_1.index t (1 : Fin 2) * 128 + 1 * (z 1).val = (z 1).val; omega

/-- Row p of the input block of point t is row 4000·t + p of the input array. -/
theorem blockRow2 (c : Dev nD) (t : Fin cfg2.N) (p : Fin 4000) (hrow : 4000 * t.val + p.val < 100000) :
    rowOf (iblk2 V c 0 t) p = rowOf (V c main_v46 : S100000x128.Idx → EReal) (⟨4000 * t.val + p.val, hrow⟩ : Fin 100000) := by
  obtain ⟨e0, e1, e2, e3, e4, e5⟩ := idx2 t
  funext j
  show V c main_v46 (((cfg2.win 0).blk t).view.emb (ix2 p j)) = V c main_v46 (ix2 (⟨4000 * t.val + p.val, hrow⟩ : Fin 100000) j)
  congr 1; funext a; apply Fin.ext
  match a with
  | ⟨0, _⟩ => show win2_0.index t (0 : Fin 2) * 4000 + 1 * p.val = 4000 * t.val + p.val; omega
  | ⟨1, _⟩ => show win2_0.index t (1 : Fin 2) * 128 + 1 * j.val = j.val; omega

/-- Entry (p, q) of the output block of point t is entry (4000·t + p, q) of the output array. -/
theorem outEmb2 (t : Fin cfg2.N) (p : Fin 4000) (q : Fin 128) (hrow : 4000 * t.val + p.val < 100000) :
    ((cfg2.win 2).blk t).view.emb (ix2 p q) = ix2 (⟨4000 * t.val + p.val, hrow⟩ : Fin 100000) q := by
  obtain ⟨e0, e1, e2, e3, e4, e5⟩ := idx2 t
  funext a; apply Fin.ext
  match a with
  | ⟨0, _⟩ => show win2_2.index t (0 : Fin 2) * 4000 + 1 * p.val = 4000 * t.val + p.val; omega
  | ⟨1, _⟩ => show win2_2.index t (1 : Fin 2) * 128 + 1 * q.val = q.val; omega

/-- What point t writes back is block t (rows 4000·t … 4000·t + 3999) of any array G whose every row is the stage's row
    function of the same row of the region's input array. -/
theorem flushed2 (c : Dev nD) (G : S100000x128.Idx → EReal)
    (hG : ∀ r : Fin 100000, rowOf G r = mmRow (mat (V c main_arg4 : S128x128.Idx → EReal)) (rowOf (V c main_v46 : S100000x128.Idx → EReal) r))
    (t : Fin cfg2.N) :
    (dat2 (F := Ideal) V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S4000x128) hz, View.ld_unit_zero (S := S128x128) hz]
  have hN : grid2.N = 25 := N_2
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k2_row (iblk2 V c 0 t) (iblk2 V c 1 t) p) q).trans ?_
  show _ = G (((cfg2.win 2).blk t).view.emb (ix2 p q))
  rw [outEmb2 t p q hrow]
  refine Eq.trans ?_ (congrFun (hG _) q).symm
  rw [whole2_1 V c t, blockRow2 V c t p hrow]

/-- An index of the array lies in point t's block iff each coordinate lies in the block's range on its axis. -/
theorem mem_blk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v47).slice (win2_2.rect t)).set ↔ _
  rw [View.set_slice_whole, Rect.mem_set_unit]
  exact Iff.rfl

/-- The 25 blocks of 4000 rows tile the array: row i lies in block i / 4000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 25 := N_2
  have hlt : (i 0).val / 4000 < cfg2.N := by show _ < grid2.N; omega
  refine ⟨⟨(i 0).val / 4000, hlt⟩, flush2_2 _, ?_⟩
  obtain ⟨e0, e1, e2, e3, e4, e5⟩ := idx2 ⟨(i 0).val / 4000, hlt⟩
  rw [mem_blk2]
  intro a
  match a with
  | ⟨0, _⟩ => show win2_2.index ⟨(i 0).val / 4000, hlt⟩ (0 : Fin 2) * 4000 ≤ (i 0).val ∧ (i 0).val < win2_2.index ⟨(i 0).val / 4000, hlt⟩ (0 : Fin 2) * 4000 + 4000; simp only [] at *; omega
  | ⟨1, _⟩ => show win2_2.index ⟨(i 0).val / 4000, hlt⟩ (1 : Fin 2) * 128 ≤ (i 1).val ∧ (i 1).val < win2_2.index ⟨(i 0).val / 4000, hlt⟩ (1 : Fin 2) * 128 + 128; omega

/-- THE ARRAY after region 2: any array whose rows are the stage's row function of the input's rows. -/
theorem region2_value (c : Dev nD) (G : S100000x128.Idx → EReal)
    (hG : ∀ r : Fin 100000, rowOf G r = mmRow (mat (V c main_arg4 : S128x128.Idx → EReal)) (rowOf (V c main_v46 : S100000x128.Idx → EReal) r)) :
    (dat2 (F := Ideal) V c).arrAt 2 cfg2.N = G :=
  (dat2 (F := Ideal) V c).arrAt_eq_of_cover 2 G (fun t _ => flushed2 V c G hG t) (cover2)

/-! ### Region 4: the array main_v65 after the region, from its blocks -/

theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Operand 1 is fetched whole at every point. -/
theorem whole4_1 (c : Dev nD) (t : Fin cfg4.N) : (iblk4 V c 1 t : S128x128.Idx → EReal) = V c main_arg6 := by
  obtain ⟨e0, e1, e2, e3, e4, e5⟩ := idx4 t
  funext z
  show V c main_arg6 (((cfg4.win 1).blk t).view.emb z) = V c main_arg6 z
  congr 1; funext a; apply Fin.ext
  match a with
  | ⟨0, _⟩ => show win4_1.index t (0 : Fin 2) * 128 + 1 * (z 0).val = (z 0).val; omega
  | ⟨1, _⟩ => show win4_1.index t (1 : Fin 2) * 128 + 1 * (z 1).val = (z 1).val; omega

/-- Row p of the input block of point t is row 4000·t + p of the input array. -/
theorem blockRow4 (c : Dev nD) (t : Fin cfg4.N) (p : Fin 4000) (hrow : 4000 * t.val + p.val < 100000) :
    rowOf (iblk4 V c 0 t) p = rowOf (V c main_v64 : S100000x128.Idx → EReal) (⟨4000 * t.val + p.val, hrow⟩ : Fin 100000) := by
  obtain ⟨e0, e1, e2, e3, e4, e5⟩ := idx4 t
  funext j
  show V c main_v64 (((cfg4.win 0).blk t).view.emb (ix2 p j)) = V c main_v64 (ix2 (⟨4000 * t.val + p.val, hrow⟩ : Fin 100000) j)
  congr 1; funext a; apply Fin.ext
  match a with
  | ⟨0, _⟩ => show win4_0.index t (0 : Fin 2) * 4000 + 1 * p.val = 4000 * t.val + p.val; omega
  | ⟨1, _⟩ => show win4_0.index t (1 : Fin 2) * 128 + 1 * j.val = j.val; omega

/-- Entry (p, q) of the output block of point t is entry (4000·t + p, q) of the output array. -/
theorem outEmb4 (t : Fin cfg4.N) (p : Fin 4000) (q : Fin 128) (hrow : 4000 * t.val + p.val < 100000) :
    ((cfg4.win 2).blk t).view.emb (ix2 p q) = ix2 (⟨4000 * t.val + p.val, hrow⟩ : Fin 100000) q := by
  obtain ⟨e0, e1, e2, e3, e4, e5⟩ := idx4 t
  funext a; apply Fin.ext
  match a with
  | ⟨0, _⟩ => show win4_2.index t (0 : Fin 2) * 4000 + 1 * p.val = 4000 * t.val + p.val; omega
  | ⟨1, _⟩ => show win4_2.index t (1 : Fin 2) * 128 + 1 * q.val = q.val; omega

/-- What point t writes back is block t (rows 4000·t … 4000·t + 3999) of any array G whose every row is the stage's row
    function of the same row of the region's input array. -/
theorem flushed4 (c : Dev nD) (G : S100000x128.Idx → EReal)
    (hG : ∀ r : Fin 100000, rowOf G r = mmRow (mat (V c main_arg6 : S128x128.Idx → EReal)) (rowOf (V c main_v64 : S100000x128.Idx → EReal) r))
    (t : Fin cfg4.N) :
    (dat4 (F := Ideal) V c).flushed 2 t = ((cfg4.win 2).blk t).view.read (Elt Ideal) G := by
  show (cfg4.win 2).cut (grid4.coords t) ((dat4 V c).after 2 t) = _
  rw [after4_2]
  unfold out4_2
  rw [View.canon_unit_zero hz]
  simp only [View.ld_unit_zero (S := S4000x128) hz, View.ld_unit_zero (S := S128x128) hz]
  have hN : grid4.N = 25 := N_4
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k4_row (iblk4 V c 0 t) (iblk4 V c 1 t) p) q).trans ?_
  show _ = G (((cfg4.win 2).blk t).view.emb (ix2 p q))
  rw [outEmb4 t p q hrow]
  refine Eq.trans ?_ (congrFun (hG _) q).symm
  rw [whole4_1 V c t, blockRow4 V c t p hrow]

/-- An index of the array lies in point t's block iff each coordinate lies in the block's range on its axis. -/
theorem mem_blk4 (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v65).slice (win4_2.rect t)).set ↔ _
  rw [View.set_slice_whole, Rect.mem_set_unit]
  exact Iff.rfl

/-- The 25 blocks of 4000 rows tile the array: row i lies in block i / 4000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 25 := N_4
  have hlt : (i 0).val / 4000 < cfg4.N := by show _ < grid4.N; omega
  refine ⟨⟨(i 0).val / 4000, hlt⟩, flush4_2 _, ?_⟩
  obtain ⟨e0, e1, e2, e3, e4, e5⟩ := idx4 ⟨(i 0).val / 4000, hlt⟩
  rw [mem_blk4]
  intro a
  match a with
  | ⟨0, _⟩ => show win4_2.index ⟨(i 0).val / 4000, hlt⟩ (0 : Fin 2) * 4000 ≤ (i 0).val ∧ (i 0).val < win4_2.index ⟨(i 0).val / 4000, hlt⟩ (0 : Fin 2) * 4000 + 4000; simp only [] at *; omega
  | ⟨1, _⟩ => show win4_2.index ⟨(i 0).val / 4000, hlt⟩ (1 : Fin 2) * 128 ≤ (i 1).val ∧ (i 1).val < win4_2.index ⟨(i 0).val / 4000, hlt⟩ (1 : Fin 2) * 128 + 128; omega

/-- THE ARRAY after region 4: any array whose rows are the stage's row function of the input's rows. -/
theorem region4_value (c : Dev nD) (G : S100000x128.Idx → EReal)
    (hG : ∀ r : Fin 100000, rowOf G r = mmRow (mat (V c main_arg6 : S128x128.Idx → EReal)) (rowOf (V c main_v64 : S100000x128.Idx → EReal) r)) :
    (dat4 (F := Ideal) V c).arrAt 2 cfg4.N = G :=
  (dat4 (F := Ideal) V c).arrAt_eq_of_cover 2 G (fun t _ => flushed4 V c G hG t) (cover4)

end Cert.KValue

end
-- ==== Proof.RowsKLN.lean ====
/-
  The bias + rectifier + layer-norm kernels, one row at a time: row p of what the body stores is the layer norm of the
  rectified, biased row p of its input block, with the three resident rows (bias, scale, shift).
-/
import proofs.«128363_j22308060135655_1_alg».proof.Proof.Gen.KernelIdeal.Skeleton
import proofs.«128363_j22308060135655_1_alg».proof.Proof.Rows
import proofs.«128363_j22308060135655_1_alg».proof.Proof.LibMatmul
import proofs.«128363_j22308060135655_1_alg».proof.Proof.LibRowReduce
import proofs.«128363_j22308060135655_1_alg».proof.Proof.LibColumns
import Idealize.ShloMosaic.Lib.ValueLayout

noncomputable section

open scoped BigOperators

namespace Cert.KRows

open Cert.KernelIdeal Cert.KernelIdeal.Gen Cert.Rows Idealize.ShloMosaic Idealize.ShloMosaic.ValueIdx

/-- The sum along the lanes of row p of a block. -/
private theorem sum_row (src : FVec Ideal S4000x128 .f32) (h : S4000x128.Reduces [1] S4000)
    (hφ : FTy.f32 = FTy.f32 ∨ FTy.f32 = FTy.bf16) (hacc : (0x00000000#32 : BitVec 32) = 0x00000000#32) (p : Fin 4000) :
    multiReduction (F := Ideal) .add [1] S4000 src 0x00000000#32 h hφ hacc (ix1 p)
      = ∑ k : Fin 128, src (ix2 p k) :=
  Cert.LibRowReduce.multiReduction_add_rows src _ h hφ hacc p

/-- The reciprocal square root, entry by entry. -/
private theorem rsqrt_apply {s : Shape} (a : FVec Ideal s .f32) (i : s.Idx) : rsqrt a i = Ideal.rsqrt (a i) := rfl

theorem k1_row (x : Vec Ideal S4000x128 .f32) (b g be : Vec Ideal S1x128 .f32) (p : Fin 4000) :
    rowOf (k1_pay1 (F := Ideal) x b g be) p = lnRow (row1 b) (row1 g) (row1 be) (rowOf x p) := by
  funext q
  show k1_pay1 (F := Ideal) x b g be (ix2 p q) = _
  unfold k1_pay1
  -- the entrywise operations read at (p, q); a resident row spread over the block reads its entry q; a per-row
  -- column spread along the row reads the value of row p
  simp only [addf_apply, mulf_apply, subf_apply, divf_apply, maximumf_apply, broadcast_apply, rsqrt_apply,
    broadcastTo_1b_ab_apply, broadcastTo_a1_ab_apply, shapeCast_a_a1_apply, shapeCast_self]
  -- the mean's sum and the variance's sum, along row p
  rw [sum_row, sum_row]
  simp only [addf_apply, mulf_apply, subf_apply, divf_apply, maximumf_apply, broadcast_apply,
    broadcastTo_1b_ab_apply, broadcastTo_a1_ab_apply, shapeCast_a_a1_apply, shapeCast_self]
  -- the mean inside each deviation of the variance's sum
  rw [sum_row]
  simp only [addf_apply, maximumf_apply, broadcast_apply, broadcastTo_1b_ab_apply, shapeCast_self]
  rfl

theorem k3_row (x : Vec Ideal S4000x128 .f32) (b g be : Vec Ideal S1x128 .f32) (p : Fin 4000) :
    rowOf (k3_pay1 (F := Ideal) x b g be) p = lnRow (row1 b) (row1 g) (row1 be) (rowOf x p) := by
  funext q
  show k3_pay1 (F := Ideal) x b g be (ix2 p q) = _
  unfold k3_pay1
  -- the entrywise operations read at (p, q); a resident row spread over the block reads its entry q; a per-row
  -- column spread along the row reads the value of row p
  simp only [addf_apply, mulf_apply, subf_apply, divf_apply, maximumf_apply, broadcast_apply, rsqrt_apply,
    broadcastTo_1b_ab_apply, broadcastTo_a1_ab_apply, shapeCast_a_a1_apply, shapeCast_self]
  -- the mean's sum and the variance's sum, along row p
  rw [sum_row, sum_row]
  simp only [addf_apply, mulf_apply, subf_apply, divf_apply, maximumf_apply, broadcast_apply,
    broadcastTo_1b_ab_apply, broadcastTo_a1_ab_apply, shapeCast_a_a1_apply, shapeCast_self]
  -- the mean inside each deviation of the variance's sum
  rw [sum_row]
  simp only [addf_apply, maximumf_apply, broadcast_apply, broadcastTo_1b_ab_apply, shapeCast_self]
  rfl

end Cert.KRows

end
-- ==== Proof.Regions1.lean ====
/-
  The two bias + rectifier + layer-norm regions.
  A region's output array, after the region, is read off the 25 blocks its grid points write back: point t writes rows
  4000·t … 4000·t + 3999 (all columns), the blocks tile the array, and — every stage here being a function of one row of the
  input block and of resident operands fetched whole — block t of the result is block t of ANY array whose rows are that
  row function of the input array's rows.
-/
import proofs.«128363_j22308060135655_1_alg».proof.Proof.Gen.KernelIdeal.Frame
import proofs.«128363_j22308060135655_1_alg».proof.Proof.RowsKLN
import Idealize.ShloMosaic.Lib.Pipeline.Value
import Idealize.ShloMosaic.Lib.ValueIdx

set_option maxRecDepth 16384

noncomputable section

namespace Cert.KValue

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

private theorem hz : (![0, 0] : Fin 2 → Nat) = fun _ => 0 := funext fun a => by fin_cases a <;> rfl

variable (V : (c : Dev nD) → (b : Ref sig .tc) → Buf (Elt Ideal) ((c : Thread nD τ).loc b))

/-! ### Region 1: the array main_v46 after the region, from its blocks -/

theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Operand 1 is fetched whole at every point. -/
theorem whole1_1 (c : Dev nD) (t : Fin cfg1.N) : (iblk1 V c 1 t : S1x128.Idx → EReal) = V c main_v43 := by
  obtain ⟨e0, e1, e2, e3, e4, e5, e6, e7, e8, e9⟩ := idx1 t
  funext z
  show V c main_v43 (((cfg1.win 1).blk t).view.emb z) = V c main_v43 z
  congr 1; funext a; apply Fin.ext
  match a with
  | ⟨0, _⟩ => show win1_1.index t (0 : Fin 2) * 1 + 1 * (z 0).val = (z 0).val; omega
  | ⟨1, _⟩ => show win1_1.index t (1 : Fin 2) * 128 + 1 * (z 1).val = (z 1).val; omega

/-- Operand 2 is fetched whole at every point. -/
theorem whole1_2 (c : Dev nD) (t : Fin cfg1.N) : (iblk1 V c 2 t : S1x128.Idx → EReal) = V c main_v44 := by
  obtain ⟨e0, e1, e2, e3, e4, e5, e6, e7, e8, e9⟩ := idx1 t
  funext z
  show V c main_v44 (((cfg1.win 2).blk t).view.emb z) = V c main_v44 z
  congr 1; funext a; apply Fin.ext
  match a with
  | ⟨0, _⟩ => show win1_2.index t (0 : Fin 2) * 1 + 1 * (z 0).val = (z 0).val; omega
  | ⟨1, _⟩ => show win1_2.index t (1 : Fin 2) * 128 + 1 * (z 1).val = (z 1).val; omega

/-- Operand 3 is fetched whole at every point. -/
theorem whole1_3 (c : Dev nD) (t : Fin cfg1.N) : (iblk1 V c 3 t : S1x128.Idx → EReal) = V c main_v45 := by
  obtain ⟨e0, e1, e2, e3, e4, e5, e6, e7, e8, e9⟩ := idx1 t
  funext z
  show V c main_v45 (((cfg1.win 3).blk t).view.emb z) = V c main_v45 z
  congr 1; funext a; apply Fin.ext
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- Row p of the input block of point t is row 4000·t + p of the input array. -/
theorem blockRow1 (c : Dev nD) (t : Fin cfg1.N) (p : Fin 4000) (hrow : 4000 * t.val + p.val < 100000) :
    rowOf (iblk1 V c 0 t) p = rowOf (V c main_v42 : S100000x128.Idx → EReal) (⟨4000 * t.val + p.val, hrow⟩ : Fin 100000) := by
  obtain ⟨e0, e1, e2, e3, e4, e5, e6, e7, e8, e9⟩ := idx1 t
  funext j
  show V c main_v42 (((cfg1.win 0).blk t).view.emb (ix2 p j)) = V c main_v42 (ix2 (⟨4000 * t.val + p.val, hrow⟩ : Fin 100000) j)
  congr 1; funext a; apply Fin.ext
  match a with
  | ⟨0, _⟩ => show win1_0.index t (0 : Fin 2) * 4000 + 1 * p.val = 4000 * t.val + p.val; omega
  | ⟨1, _⟩ => show win1_0.index t (1 : Fin 2) * 128 + 1 * j.val = j.val; omega

/-- Entry (p, q) of the output block of point t is entry (4000·t + p, q) of the output array. -/
theorem outEmb1 (t : Fin cfg1.N) (p : Fin 4000) (q : Fin 128) (hrow : 4000 * t.val + p.val < 100000) :
    ((cfg1.win 4).blk t).view.emb (ix2 p q) = ix2 (⟨4000 * t.val + p.val, hrow⟩ : Fin 100000) q := by
  obtain ⟨e0, e1, e2, e3, e4, e5, e6, e7, e8, e9⟩ := idx1 t
  funext a; apply Fin.ext
  match a with
  | ⟨0, _⟩ => show win1_4.index t (0 : Fin 2) * 4000 + 1 * p.val = 4000 * t.val + p.val; omega
  | ⟨1, _⟩ => show win1_4.index t (1 : Fin 2) * 128 + 1 * q.val = q.val; omega

/-- What point t writes back is block t (rows 4000·t … 4000·t + 3999) of any array G whose every row is the stage's row
    function of the same row of the region's input array. -/
theorem flushed1 (c : Dev nD) (G : S100000x128.Idx → EReal)
    (hG : ∀ r : Fin 100000, rowOf G r = lnRow (row1 (V c main_v43 : S1x128.Idx → EReal)) (row1 (V c main_v44 : S1x128.Idx → EReal)) (row1 (V c main_v45 : S1x128.Idx → EReal)) (rowOf (V c main_v42 : S100000x128.Idx → EReal) r))
    (t : Fin cfg1.N) :
    (dat1 (F := Ideal) V c).flushed 4 t = ((cfg1.win 4).blk t).view.read (Elt Ideal) G := by
  show (cfg1.win 4).cut (grid1.coords t) ((dat1 V c).after 4 t) = _
  rw [after1_4]
  unfold out1_4
  rw [View.canon_unit_zero hz]
  simp only [View.ld_unit_zero (S := S4000x128) hz, View.ld_unit_zero (S := S1x128) hz]
  have hN : grid1.N = 25 := N_1
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k1_row (iblk1 V c 0 t) (iblk1 V c 1 t) (iblk1 V c 2 t) (iblk1 V c 3 t) p) q).trans ?_
  show _ = G (((cfg1.win 4).blk t).view.emb (ix2 p q))
  rw [outEmb1 t p q hrow]
  refine Eq.trans ?_ (congrFun (hG _) q).symm
  rw [whole1_1 V c t, whole1_2 V c t, whole1_3 V c t, blockRow1 V c t p hrow]

/-- An index of the array lies in point t's block iff each coordinate lies in the block's range on its axis. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v46).slice (win1_4.rect t)).set ↔ _
  rw [View.set_slice_whole, Rect.mem_set_unit]
  exact Iff.rfl

/-- The 25 blocks of 4000 rows tile the array: row i lies in block i / 4000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 25 := N_1
  have hlt : (i 0).val / 4000 < cfg1.N := by show _ < grid1.N; omega
  refine ⟨⟨(i 0).val / 4000, hlt⟩, flush1_4 _, ?_⟩
  obtain ⟨e0, e1, e2, e3, e4, e5, e6, e7, e8, e9⟩ := idx1 ⟨(i 0).val / 4000, hlt⟩
  rw [mem_blk1]
  intro a
  match a with
  | ⟨0, _⟩ => show win1_4.index ⟨(i 0).val / 4000, hlt⟩ (0 : Fin 2) * 4000 ≤ (i 0).val ∧ (i 0).val < win1_4.index ⟨(i 0).val / 4000, hlt⟩ (0 : Fin 2) * 4000 + 4000; simp only [] at *; omega
  | ⟨1, _⟩ => show win1_4.index ⟨(i 0).val / 4000, hlt⟩ (1 : Fin 2) * 128 ≤ (i 1).val ∧ (i 1).val < win1_4.index ⟨(i 0).val / 4000, hlt⟩ (1 : Fin 2) * 128 + 128; omega

/-- THE ARRAY after region 1: any array whose rows are the stage's row function of the input's rows. -/
theorem region1_value (c : Dev nD) (G : S100000x128.Idx → EReal)
    (hG : ∀ r : Fin 100000, rowOf G r = lnRow (row1 (V c main_v43 : S1x128.Idx → EReal)) (row1 (V c main_v44 : S1x128.Idx → EReal)) (row1 (V c main_v45 : S1x128.Idx → EReal)) (rowOf (V c main_v42 : S100000x128.Idx → EReal) r)) :
    (dat1 (F := Ideal) V c).arrAt 4 cfg1.N = G :=
  (dat1 (F := Ideal) V c).arrAt_eq_of_cover 4 G (fun t _ => flushed1 V c G hG t) (cover1)

/-! ### Region 3: the array main_v64 after the region, from its blocks -/

theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- Operand 1 is fetched whole at every point. -/
theorem whole3_1 (c : Dev nD) (t : Fin cfg3.N) : (iblk3 V c 1 t : S1x128.Idx → EReal) = V c main_v61 := by
  obtain ⟨e0, e1, e2, e3, e4, e5, e6, e7, e8, e9⟩ := idx3 t
  funext z
  show V c main_v61 (((cfg3.win 1).blk t).view.emb z) = V c main_v61 z
  congr 1; funext a; apply Fin.ext
  match a with
  | ⟨0, _⟩ => show win3_1.index t (0 : Fin 2) * 1 + 1 * (z 0).val = (z 0).val; omega
  | ⟨1, _⟩ => show win3_1.index t (1 : Fin 2) * 128 + 1 * (z 1).val = (z 1).val; omega

/-- Operand 2 is fetched whole at every point. -/
theorem whole3_2 (c : Dev nD) (t : Fin cfg3.N) : (iblk3 V c 2 t : S1x128.Idx → EReal) = V c main_v62 := by
  obtain ⟨e0, e1, e2, e3, e4, e5, e6, e7, e8, e9⟩ := idx3 t
  funext z
  show V c main_v62 (((cfg3.win 2).blk t).view.emb z) = V c main_v62 z
  congr 1; funext a; apply Fin.ext
  match a with
  | ⟨0, _⟩ => show win3_2.index t (0 : Fin 2) * 1 + 1 * (z 0).val = (z 0).val; omega
  | ⟨1, _⟩ => show win3_2.index t (1 : Fin 2) * 128 + 1 * (z 1).val = (z 1).val; omega

/-- Operand 3 is fetched whole at every point. -/
theorem whole3_3 (c : Dev nD) (t : Fin cfg3.N) : (iblk3 V c 3 t : S1x128.Idx → EReal) = V c main_v63 := by
  obtain ⟨e0, e1, e2, e3, e4, e5, e6, e7, e8, e9⟩ := idx3 t
  funext z
  show V c main_v63 (((cfg3.win 3).blk t).view.emb z) = V c main_v63 z
  congr 1; funext a; apply Fin.ext
  match a with
  | ⟨0, _⟩ => show win3_3.index t (0 : Fin 2) * 1 + 1 * (z 0).val = (z 0).val; omega
  | ⟨1, _⟩ => show win3_3.index t (1 : Fin 2) * 128 + 1 * (z 1).val = (z 1).val; omega

/-- Row p of the input block of point t is row 4000·t + p of the input array. -/
theorem blockRow3 (c : Dev nD) (t : Fin cfg3.N) (p : Fin 4000) (hrow : 4000 * t.val + p.val < 100000) :
    rowOf (iblk3 V c 0 t) p = rowOf (V c main_v60 : S100000x128.Idx → EReal) (⟨4000 * t.val + p.val, hrow⟩ : Fin 100000) := by
  obtain ⟨e0, e1, e2, e3, e4, e5, e6, e7, e8, e9⟩ := idx3 t
  funext j
  show V c main_v60 (((cfg3.win 0).blk t).view.emb (ix2 p j)) = V c main_v60 (ix2 (⟨4000 * t.val + p.val, hrow⟩ : Fin 100000) j)
  congr 1; funext a; apply Fin.ext
  match a with
  | ⟨0, _⟩ => show win3_0.index t (0 : Fin 2) * 4000 + 1 * p.val = 4000 * t.val + p.val; omega
  | ⟨1, _⟩ => show win3_0.index t (1 : Fin 2) * 128 + 1 * j.val = j.val; omega

/-- Entry (p, q) of the output block of point t is entry (4000·t + p, q) of the output array. -/
theorem outEmb3 (t : Fin cfg3.N) (p : Fin 4000) (q : Fin 128) (hrow : 4000 * t.val + p.val < 100000) :
    ((cfg3.win 4).blk t).view.emb (ix2 p q) = ix2 (⟨4000 * t.val + p.val, hrow⟩ : Fin 100000) q := by
  obtain ⟨e0, e1, e2, e3, e4, e5, e6, e7, e8, e9⟩ := idx3 t
  funext a; apply Fin.ext
  match a with
  | ⟨0, _⟩ => show win3_4.index t (0 : Fin 2) * 4000 + 1 * p.val = 4000 * t.val + p.val; omega
  | ⟨1, _⟩ => show win3_4.index t (1 : Fin 2) * 128 + 1 * q.val = q.val; omega

/-- What point t writes back is block t (rows 4000·t … 4000·t + 3999) of any array G whose every row is the stage's row
    function of the same row of the region's input array. -/
theorem flushed3 (c : Dev nD) (G : S100000x128.Idx → EReal)
    (hG : ∀ r : Fin 100000, rowOf G r = lnRow (row1 (V c main_v61 : S1x128.Idx → EReal)) (row1 (V c main_v62 : S1x128.Idx → EReal)) (row1 (V c main_v63 : S1x128.Idx → EReal)) (rowOf (V c main_v60 : S100000x128.Idx → EReal) r))
    (t : Fin cfg3.N) :
    (dat3 (F := Ideal) V c).flushed 4 t = ((cfg3.win 4).blk t).view.read (Elt Ideal) G := by
  show (cfg3.win 4).cut (grid3.coords t) ((dat3 V c).after 4 t) = _
  rw [after3_4]
  unfold out3_4
  rw [View.canon_unit_zero hz]
  simp only [View.ld_unit_zero (S := S4000x128) hz, View.ld_unit_zero (S := S1x128) hz]
  have hN : grid3.N = 25 := N_3
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k3_row (iblk3 V c 0 t) (iblk3 V c 1 t) (iblk3 V c 2 t) (iblk3 V c 3 t) p) q).trans ?_
  show _ = G (((cfg3.win 4).blk t).view.emb (ix2 p q))
  rw [outEmb3 t p q hrow]
  refine Eq.trans ?_ (congrFun (hG _) q).symm
  rw [whole3_1 V c t, whole3_2 V c t, whole3_3 V c t, blockRow3 V c t p hrow]

/-- An index of the array lies in point t's block iff each coordinate lies in the block's range on its axis. -/
theorem mem_blk3 (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v64).slice (win3_4.rect t)).set ↔ _
  rw [View.set_slice_whole, Rect.mem_set_unit]
  exact Iff.rfl

/-- The 25 blocks of 4000 rows tile the array: row i lies in block i / 4000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 25 := N_3
  have hlt : (i 0).val / 4000 < cfg3.N := by show _ < grid3.N; omega
  refine ⟨⟨(i 0).val / 4000, hlt⟩, flush3_4 _, ?_⟩
  obtain ⟨e0, e1, e2, e3, e4, e5, e6, e7, e8, e9⟩ := idx3 ⟨(i 0).val / 4000, hlt⟩
  rw [mem_blk3]
  intro a
  match a with
  | ⟨0, _⟩ => show win3_4.index ⟨(i 0).val / 4000, hlt⟩ (0 : Fin 2) * 4000 ≤ (i 0).val ∧ (i 0).val < win3_4.index ⟨(i 0).val / 4000, hlt⟩ (0 : Fin 2) * 4000 + 4000; simp only [] at *; omega
  | ⟨1, _⟩ => show win3_4.index ⟨(i 0).val / 4000, hlt⟩ (1 : Fin 2) * 128 ≤ (i 1).val ∧ (i 1).val < win3_4.index ⟨(i 0).val / 4000, hlt⟩ (1 : Fin 2) * 128 + 128; omega

/-- THE ARRAY after region 3: any array whose rows are the stage's row function of the input's rows. -/
theorem region3_value (c : Dev nD) (G : S100000x128.Idx → EReal)
    (hG : ∀ r : Fin 100000, rowOf G r = lnRow (row1 (V c main_v61 : S1x128.Idx → EReal)) (row1 (V c main_v62 : S1x128.Idx → EReal)) (row1 (V c main_v63 : S1x128.Idx → EReal)) (rowOf (V c main_v60 : S100000x128.Idx → EReal) r)) :
    (dat3 (F := Ideal) V c).arrAt 4 cfg3.N = G :=
  (dat3 (F := Ideal) V c).arrAt_eq_of_cover 4 G (fun t _ => flushed3 V c G hG t) (cover3)

end Cert.KValue

end
-- ==== Proof.RowsKHead.lean ====
/-
  The bias + rectifier kernel and the two-layer head kernel, one row at a time.
-/
import proofs.«128363_j22308060135655_1_alg».proof.Proof.Gen.KernelIdeal.Skeleton
import proofs.«128363_j22308060135655_1_alg».proof.Proof.Rows
import proofs.«128363_j22308060135655_1_alg».proof.Proof.LibMatmul
import proofs.«128363_j22308060135655_1_alg».proof.Proof.LibRowReduce
import proofs.«128363_j22308060135655_1_alg».proof.Proof.LibColumns
import Idealize.ShloMosaic.Lib.ValueLayout

noncomputable section

open scoped BigOperators

namespace Cert.KRows

open Cert.KernelIdeal Cert.KernelIdeal.Gen Cert.Rows Idealize.ShloMosaic Idealize.ShloMosaic.ValueIdx

/-- A scalar constant's word on the extended reals is the value the word denotes. -/
private theorem scalar_ofBits_eq (φ : FTy) (w : BitVec φ.bits) : Scalar.ofBits (F := Ideal) φ w = Ideal.ofBits φ w := rfl

/-- The logistic of a vector, read at an index, is the logistic of the entry. -/
private theorem logistic_apply {s : Shape} {φ : FTy} (v : FVec Ideal s φ) (i : s.Idx) :
    logistic v i = Ideal.logistic (v i) := rfl

/-- The matrix unit's product into the zero accumulator at (p, q): the sum over the contracted position j of
    lhs (p, j) · rhs (j, q). -/
private theorem matmul_ix2 {a k b : ℕ} {φ₁ φ₂ : FTy} (d : DotDims ⟨2, ![a, k]⟩ ⟨2, ![k, b]⟩ ⟨2, ![a, b]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    matmul d prec lhs rhs (constant ⟨2, ![a, b]⟩ .f32 0x00000000#32) (ix2 p q)
      = ∑ j : Fin k, lhs (ix2 p j) * rhs (ix2 j q) :=
  matmul_zero_ix2 d hl hr hln hrn hlb hrb prec lhs rhs p q

theorem k5_row (x : Vec Ideal S4000x128 .f32) (b : Vec Ideal S1x128 .f32) (p : Fin 4000) :
    rowOf (k5_pay1 (F := Ideal) x b) p = biasRelu (row1 b) (rowOf x p) := by
  funext q
  -- entry q of the row: max(x(p, q) + b(0, q), 0), the zero kept as its word
  show k5_pay1 (F := Ideal) x b (ix2 p q)
    = max (x (ix2 p q) + b (ix2 (0 : Fin 1) q)) (Ideal.ofBits .f32 0x00000000#32)
  unfold k5_pay1
  rw [maximumf_apply, addf_apply, broadcast_apply, shapeCast_self, shapeCast_self, broadcastTo_1b_ab_apply,
    scalar_ofBits_eq]

theorem k6_row (x : Vec Ideal S4000x128 .f32) (w1 : Vec Ideal S128x128 .f32) (b1 : Vec Ideal S1x128 .f32)
    (w2 : Vec Ideal S128x64 .f32) (b2 : Vec Ideal S1x64 .f32) (p : Fin 4000) :
    rowOf (k6_pay1 (F := Ideal) x w1 b1 w2 b2) p = headRow (mat w1) (row1 b1) (mat w2) (row1 b2) (rowOf x p) := by
  funext q
  -- entry q of the row: logistic(Σ_j (Σ_i x(p, i) · w1(i, j) + b1(0, j)) · w2(j, q) + b2(0, q))
  show k6_pay1 (F := Ideal) x w1 b1 w2 b2 (ix2 p q)
    = Ideal.logistic ((∑ j : Fin 128, ((∑ i : Fin 128, x (ix2 p i) * w1 (ix2 i j)) + b1 (ix2 (0 : Fin 1) j)) * w2 (ix2 j q))
        + b2 (ix2 (0 : Fin 1) q))
  unfold k6_pay1
  -- the outer product into the zero accumulator is the sum over the hidden position j; the bias row is read at column q
  rw [logistic_apply, addf_apply,
    matmul_ix2 dot_S4000x128_S128x64_S4000x64_1_0_0_1_n_n rfl rfl rfl rfl rfl rfl none _ _ p q,
    shapeCast_self, shapeCast_self, shapeCast_self, broadcastTo_1b_ab_apply]
  refine congrArg (fun z => Ideal.logistic (z + b2 (ix2 (0 : Fin 1) q))) ?_
  refine Finset.sum_congr rfl fun j _ => ?_
  -- the narrowings are the identity; the hidden entry (p, j) is the inner product plus its bias
  rw [truncf_apply, truncf_apply, addf_apply,
    matmul_ix2 dot_S4000x128_S128x128_S4000x128_1_0_0_1_n_n rfl rfl rfl rfl rfl rfl none _ _ p j,
    broadcastTo_1b_ab_apply]
  refine congrArg (fun z => (z + b1 (ix2 (0 : Fin 1) j)) * w2 (ix2 j q)) ?_
  refine Finset.sum_congr rfl fun i _ => ?_
  rw [truncf_apply, truncf_apply]

end Cert.KRows

end
-- ==== Proof.Regions2.lean ====
/-
  The bias + rectifier region of the third layer, and the head region.
  A region's output array, after the region, is read off the 25 blocks its grid points write back: point t writes rows
  4000·t … 4000·t + 3999 (all columns), the blocks tile the array, and — every stage here being a function of one row of the
  input block and of resident operands fetched whole — block t of the result is block t of ANY array whose rows are that
  row function of the input array's rows.
-/
import proofs.«128363_j22308060135655_1_alg».proof.Proof.Gen.KernelIdeal.Frame
import proofs.«128363_j22308060135655_1_alg».proof.Proof.RowsKHead
import Idealize.ShloMosaic.Lib.Pipeline.Value
import Idealize.ShloMosaic.Lib.ValueIdx

set_option maxRecDepth 16384

noncomputable section

namespace Cert.KValue

open Cert.KernelIdeal Cert.KernelIdeal.Gen Cert.Rows
open Idealize.ShloMosaic Idealize.ShloMosaic.TcCoe Idealize.ShloMosaic.ValueIdx Idealize.SL.Sem
open Idealize.ShloMosaic.Pipeline (Dat Cfg Window)

private theorem hz : (![0, 0] : Fin 2 → Nat) = fun _ => 0 := funext fun a => by fin_cases a <;> rfl

variable (V : (c : Dev nD) → (b : Ref sig .tc) → Buf (Elt Ideal) ((c : Thread nD τ).loc b))

/-! ### Region 5: the array main_v80 after the region, from its blocks -/

theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Operand 1 is fetched whole at every point. -/
theorem whole5_1 (c : Dev nD) (t : Fin cfg5.N) : (iblk5 V c 1 t : S1x128.Idx → EReal) = V c main_v79 := by
  obtain ⟨e0, e1, e2, e3, e4, e5⟩ := idx5 t
  funext z
  show V c main_v79 (((cfg5.win 1).blk t).view.emb z) = V c main_v79 z
  congr 1; funext a; apply Fin.ext
  match a with
  | ⟨0, _⟩ => show win5_1.index t (0 : Fin 2) * 1 + 1 * (z 0).val = (z 0).val; omega
  | ⟨1, _⟩ => show win5_1.index t (1 : Fin 2) * 128 + 1 * (z 1).val = (z 1).val; omega

/-- Row p of the input block of point t is row 4000·t + p of the input array. -/
theorem blockRow5 (c : Dev nD) (t : Fin cfg5.N) (p : Fin 4000) (hrow : 4000 * t.val + p.val < 100000) :
    rowOf (iblk5 V c 0 t) p = rowOf (V c main_v78 : S100000x128.Idx → EReal) (⟨4000 * t.val + p.val, hrow⟩ : Fin 100000) := by
  obtain ⟨e0, e1, e2, e3, e4, e5⟩ := idx5 t
  funext j
  show V c main_v78 (((cfg5.win 0).blk t).view.emb (ix2 p j)) = V c main_v78 (ix2 (⟨4000 * t.val + p.val, hrow⟩ : Fin 100000) j)
  congr 1; funext a; apply Fin.ext
  match a with
  | ⟨0, _⟩ => show win5_0.index t (0 : Fin 2) * 4000 + 1 * p.val = 4000 * t.val + p.val; omega
  | ⟨1, _⟩ => show win5_0.index t (1 : Fin 2) * 128 + 1 * j.val = j.val; omega

/-- Entry (p, q) of the output block of point t is entry (4000·t + p, q) of the output array. -/
theorem outEmb5 (t : Fin cfg5.N) (p : Fin 4000) (q : Fin 128) (hrow : 4000 * t.val + p.val < 100000) :
    ((cfg5.win 2).blk t).view.emb (ix2 p q) = ix2 (⟨4000 * t.val + p.val, hrow⟩ : Fin 100000) q := by
  obtain ⟨e0, e1, e2, e3, e4, e5⟩ := idx5 t
  funext a; apply Fin.ext
  match a with
  | ⟨0, _⟩ => show win5_2.index t (0 : Fin 2) * 4000 + 1 * p.val = 4000 * t.val + p.val; omega
  | ⟨1, _⟩ => show win5_2.index t (1 : Fin 2) * 128 + 1 * q.val = q.val; omega

/-- What point t writes back is block t (rows 4000·t … 4000·t + 3999) of any array G whose every row is the stage's row
    function of the same row of the region's input array. -/
theorem flushed5 (c : Dev nD) (G : S100000x128.Idx → EReal)
    (hG : ∀ r : Fin 100000, rowOf G r = biasRelu (row1 (V c main_v79 : S1x128.Idx → EReal)) (rowOf (V c main_v78 : S100000x128.Idx → EReal) r))
    (t : Fin cfg5.N) :
    (dat5 (F := Ideal) V c).flushed 2 t = ((cfg5.win 2).blk t).view.read (Elt Ideal) G := by
  show (cfg5.win 2).cut (grid5.coords t) ((dat5 V c).after 2 t) = _
  rw [after5_2]
  unfold out5_2
  rw [View.canon_unit_zero hz]
  simp only [View.ld_unit_zero (S := S4000x128) hz, View.ld_unit_zero (S := S1x128) hz]
  have hN : grid5.N = 25 := N_5
  have ht : t.val < 25 := hN ▸ t.isLt
  funext y
  obtain ⟨p, q, rfl⟩ : ∃ (p : Fin 4000) (q : Fin 128), y = ix2 p q := ⟨y 0, y 1, eq_ix2 y⟩
  have hrow : 4000 * t.val + p.val < 100000 := by have := p.isLt; omega
  refine (congrFun (Cert.KRows.k5_row (iblk5 V c 0 t) (iblk5 V c 1 t) p) q).trans ?_
  show _ = G (((cfg5.win 2).blk t).view.emb (ix2 p q))
  rw [outEmb5 t p q hrow]
  refine Eq.trans ?_ (congrFun (hG _) q).symm
  rw [whole5_1 V c t, blockRow5 V c t p hrow]

/-- An index of the array lies in point t's block iff each coordinate lies in the block's range on its axis. -/
theorem mem_blk5 (t : Fin cfg5.N) (i : S100000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v80).slice (win5_2.rect t)).set ↔ _
  rw [View.set_slice_whole, Rect.mem_set_unit]
  exact Iff.rfl

/-- The 25 blocks of 4000 rows tile the array: row i lies in block i / 4000. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 25 := N_5
  have hlt : (i 0).val / 4000 < cfg5.N := by show _ < grid5.N; omega
  refine ⟨⟨(i 0).val / 4000, hlt⟩, flush5_2 _, ?_⟩
  obtain ⟨e0, e1, e2, e3, e4, e5⟩ := idx5 ⟨(i 0).val / 4000, hlt⟩
  rw [mem_blk5]
  intro a
  match a with
  | ⟨0, _⟩ => show win5_2.index ⟨(i 0).val / 4000, hlt⟩ (0 : Fin 2) * 4000 ≤ (i 0).val ∧ (i 0).val < win5_2.index ⟨(i 0).val / 4000, hlt⟩ (0 : Fin 2) * 4000 + 4000; simp only [] at *; omega
  | ⟨1, _⟩ => show win5_2.index ⟨(i 0).val / 4000, hlt⟩ (1 : Fin 2) * 128 ≤ (i 1).val ∧ (i 1).val < win5_2.index ⟨(i 0).val / 4000, hlt⟩ (1 : Fin 2) * 128 + 128; omega

/-- THE ARRAY after region 5: any array whose rows are the stage's row function of the input's rows. -/
theorem region5_value (c : Dev nD) (G : S100000x128.Idx → EReal)
    (hG : ∀ r : Fin 100000, rowOf G r = biasRelu (row1 (V c main_v79 : S1x128.Idx → EReal)) (rowOf (V c main_v78 : S100000x128.Idx → EReal) r)) :
    (dat5 (F := Ideal) V c).arrAt 2 cfg5.N = G :=
  (dat5 (F := Ideal) V c).arrAt_eq_of_cover 2 G (fun t _ => flushed5 V c G hG t) (cover5)

/-! ### Region 6: the array main_v83 after the region, from its blocks -/

theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0 :=
  (by decide +kernel : ∀ t : Fin grid6.N, _)

/-- Operand 1 is fetched whole at every point. -/
theorem whole6_1 (c : Dev nD) (t : Fin cfg6.N) : (iblk6 V c 1 t : S128x128.Idx → EReal) = V c main_arg12 := by
  obtain ⟨e0, e1, e2, e3, e4, e5, e6, e7, e8, e9, e10, e11⟩ := idx6 t
  funext z
  show V c main_arg12 (((cfg6.win 1).blk t).view.emb z) = V c main_arg12 z
  congr 1; funext a; apply Fin.ext
  match a with
  | ⟨0, _⟩ => show win6_1.index t (0 : Fin 2) * 128 + 1 * (z 0).val = (z 0).val; omega
  | ⟨1, _⟩ => show win6_1.index t (1 : Fin 2) * 128 + 1 * (z 1).val = (z 1).val; omega

/-- Operand 2 is fetched whole at every point. -/
theorem whole6_2 (c : Dev nD) (t : Fin cfg6.N) : (iblk6 V c 2 t : S1x128.Idx → EReal) = V c main_v81 := by
  obtain ⟨e0, e1, e2, e3, e4, e5, e6, e7, e8, e9, e10, e11⟩ := idx6 t
  funext z
  show V c main_v81 (((cfg6.win 2).blk t).view.emb z) = V c main_v81 z
  congr 1; funext a; apply Fin.ext
  match a with
  | ⟨0, _⟩ => show win6_2.index t (0 : Fin 2) * 1 + 1 * (z 0).val = (z 0).val; omega
  | ⟨1, _⟩ => show win6_2.index t (1 : Fin 2) * 128 + 1 * (z 1).val = (z 1).val; omega

/-- Operand 3 is fetched whole at every point. -/
theorem whole6_3 (c : Dev nD) (t : Fin cfg6.N) : (iblk6 V c 3 t : S128x64.Idx → EReal) = V c main_arg14 := by
  obtain ⟨e0, e1, e2, e3, e4, e5, e6, e7, e8, e9, e10, e11⟩ := idx6 t
  funext z
  show V c main_arg14 (((cfg6.win 3).blk t).view.emb z) = V c main_arg14 z
  congr 1; funext a; apply Fin.ext
  match a with
  | ⟨0, _⟩ => show win6_3.index t (0 : Fin 2) * 128 + 1 * (z 0).val = (z 0).val; omega
  | ⟨1, _⟩ => show win6_3.index t (1 : Fin 2) * 64 + 1 * (z 1).val = (z 1).val; omega

/-- Operand 4 is fetched whole at every point. -/
theorem whole6_4 (c : Dev nD) (t : Fin cfg6.N) : (iblk6 V c 4 t : S1x64.Idx → EReal) = V c main_v82 := by
  obtain ⟨e0, e1, e2, e3, e4, e5, e6, e7, e8, e9, e10, e11⟩ := idx6 t
  funext z
  show V c main_v82 (((cfg6.win 4).blk t).view.emb z) = V c main_v82 z
  congr 1; funext a; apply Fin.ext
  match a with
  | ⟨0, _⟩ => show win6_4.index t (0 : Fin 2) * 1 + 1 * (z 0).val = (z 0).val; omega
  | ⟨1, _⟩ => show win6_4.index t (1 : Fin 2) * 64 + 1 * (z 1).val = (z 1).val; omega

/-- Row p of the input block of point t is row 4000·t + p of the input array. -/
theorem blockRow6 (c : Dev nD) (t : Fin cfg6.N) (p : Fin 4000) (hrow : 4000 * t.val + p.val < 100000) :
    rowOf (iblk6 V c 0 t) p = rowOf (V c main_v80 : S100000x128.Idx → EReal) (⟨4000 * t.val + p.val, hrow⟩ : Fin 100000) := by
  obtain ⟨e0, e1, e2, e3, e4, e5, e6, e7, e8, e9, e10, e11⟩ := idx6 t
  funext j
  show V c main_v80 (((cfg6.win 0).blk t).view.emb (ix2 p j)) = V c main_v80 (ix2 (⟨4000 * t.val + p.val, hrow⟩ : Fin 100000) j)
  congr 1; funext a; apply Fin.ext
  match a with
  | ⟨0, _⟩ => show win6_0.index t (0 : Fin 2) * 4000 + 1 * p.val = 4000 * t.val + p.val; omega
  | ⟨1, _⟩ => show win6_0.index t (1 : Fin 2) * 128 + 1 * j.val = j.val; omega

/-- Entry (p, q) of the output block of point t is entry (4000·t + p, q) of the output array. -/
theorem outEmb6 (t : Fin cfg6.N) (p : Fin 4000) (q : Fin 64) (hrow : 4000 * t.val + p.val < 100000) :
    ((cfg6.win 5).blk t).view.emb (ix2 p q) = ix2 (⟨4000 * t.val + p.val, hrow⟩ : Fin 100000) q := by
  obtain ⟨e0, e1, e2, e3, e4, e5, e6, e7, e8, e9, e10, e11⟩ := idx6 t
  funext a; apply Fin.ext
  match a with
  | ⟨0, _⟩ => show win6_5.index t (0 : Fin 2) * 4000 + 1 * p.val = 4000 * t.val + p.val; omega
  | ⟨1, _⟩ => show win6_5.index t (1 : Fin 2) * 64 + 1 * q.val = q.val; omega

/-- What point t writes back is block t (rows 4000·t … 4000·t + 3999) of any array G whose every row is the stage's row
    function of the same row of the region's input array. -/
theorem flushed6 (c : Dev nD) (G : S100000x64.Idx → EReal)
    (hG : ∀ r : Fin 100000, rowOf G r = headRow (mat (V c main_arg12 : S128x128.Idx → EReal)) (row1 (V c main_v81 : S1x128.Idx → EReal)) (mat (V c main_arg14 : S128x64.Idx → EReal)) (row1 (V c main_v82 : S1x64.Idx → EReal)) (rowOf (V c main_v80 : S100000x128.Idx → EReal) r))
    (t : Fin cfg6.N) :
    (dat6 (F := Ideal) V c).flushed 5 t = ((cfg6.win 5).blk t).view.read (Elt Ideal) G := by
  show (cfg6.win 5).cut (grid6.coords t) ((dat6 V c).after 5 t) = _
  rw [after6_5]
  unfold out6_5
  rw [View.canon_unit_zero hz]
  simp only [View.ld_unit_zero (S := S4000x128) hz, View.ld_unit_zero (S := S128x128) hz, View.ld_unit_zero (S := S1x128) hz, View.ld_unit_zero (S := S128x64) hz, View.ld_unit_zero (S := S1x64) hz, View.ld_unit_zero (S := S4000x64) hz]
  have hN : grid6.N = 25 := N_6
  have ht : t.val < 25 := hN ▸ t.isLt
  funext y
  obtain ⟨p, q, rfl⟩ : ∃ (p : Fin 4000) (q : Fin 64), y = ix2 p q := ⟨y 0, y 1, eq_ix2 y⟩
  have hrow : 4000 * t.val + p.val < 100000 := by have := p.isLt; omega
  refine (congrFun (Cert.KRows.k6_row (iblk6 V c 0 t) (iblk6 V c 1 t) (iblk6 V c 2 t) (iblk6 V c 3 t) (iblk6 V c 4 t) p) q).trans ?_
  show _ = G (((cfg6.win 5).blk t).view.emb (ix2 p q))
  rw [outEmb6 t p q hrow]
  refine Eq.trans ?_ (congrFun (hG _) q).symm
  rw [whole6_1 V c t, whole6_2 V c t, whole6_3 V c t, whole6_4 V c t, blockRow6 V c t p hrow]

/-- An index of the array lies in point t's block iff each coordinate lies in the block's range on its axis. -/
theorem mem_blk6 (t : Fin cfg6.N) (i : S100000x64.Idx) :
    i ∈ ((cfg6.win 5).blk t).view.set ↔ ∀ a : Fin 2, win6_5.index t a * S4000x64.size a ≤ (i a).val ∧ (i a).val < win6_5.index t a * S4000x64.size a + S4000x64.size a := by
  show i ∈ ((View.whole main_v83).slice (win6_5.rect t)).set ↔ _
  rw [View.set_slice_whole, Rect.mem_set_unit]
  exact Iff.rfl

/-- The 25 blocks of 4000 rows tile the array: row i lies in block i / 4000. -/
theorem cover6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : grid6.N = 25 := N_6
  have hlt : (i 0).val / 4000 < cfg6.N := by show _ < grid6.N; omega
  refine ⟨⟨(i 0).val / 4000, hlt⟩, flush6_5 _, ?_⟩
  obtain ⟨e0, e1, e2, e3, e4, e5, e6, e7, e8, e9, e10, e11⟩ := idx6 ⟨(i 0).val / 4000, hlt⟩
  rw [mem_blk6]
  intro a
  match a with
  | ⟨0, _⟩ => show win6_5.index ⟨(i 0).val / 4000, hlt⟩ (0 : Fin 2) * 4000 ≤ (i 0).val ∧ (i 0).val < win6_5.index ⟨(i 0).val / 4000, hlt⟩ (0 : Fin 2) * 4000 + 4000; simp only [] at *; omega
  | ⟨1, _⟩ => show win6_5.index ⟨(i 0).val / 4000, hlt⟩ (1 : Fin 2) * 64 ≤ (i 1).val ∧ (i 1).val < win6_5.index ⟨(i 0).val / 4000, hlt⟩ (1 : Fin 2) * 64 + 64; omega

/-- THE ARRAY after region 6: any array whose rows are the stage's row function of the input's rows. -/
theorem region6_value (c : Dev nD) (G : S100000x64.Idx → EReal)
    (hG : ∀ r : Fin 100000, rowOf G r = headRow (mat (V c main_arg12 : S128x128.Idx → EReal)) (row1 (V c main_v81 : S1x128.Idx → EReal)) (mat (V c main_arg14 : S128x64.Idx → EReal)) (row1 (V c main_v82 : S1x64.Idx → EReal)) (rowOf (V c main_v80 : S100000x128.Idx → EReal) r)) :
    (dat6 (F := Ideal) V c).arrAt 5 cfg6.N = G :=
  (dat6 (F := Ideal) V c).arrAt_eq_of_cover 5 G (fun t _ => flushed6 V c G hG t) (cover6)

end Cert.KValue

end
-- ==== Proof.RowsHMM.lean ====
/-
  The reference's three matrix products between graph layers, one row at a time: row r of X · W is row r of X times W.
-/
import proofs.«128363_j22308060135655_1_alg».proof.Proof.Gen.ReferenceIdeal.Read
import proofs.«128363_j22308060135655_1_alg».proof.Proof.Rows
import proofs.«128363_j22308060135655_1_alg».proof.Proof.LibMatmul
import Idealize.ShloMosaic.Lib.ValueLayout

noncomputable section

open scoped BigOperators

namespace Cert.HRows

open Cert.ReferenceIdeal Cert.ReferenceIdeal.Read Cert.Rows Idealize.ShloMosaic Idealize.ShloMosaic.ValueIdx

variable (x0 : (⟨S100000x128, .f32⟩ : BufTy).Contents (Elt Ideal)) (x1 : (⟨S2x1600000, .i32⟩ : BufTy).Contents (Elt Ideal))
  (x2 x4 x6 x12 : (⟨S128x128, .f32⟩ : BufTy).Contents (Elt Ideal))
  (x3 x5 x7 x8 x9 x10 x11 x13 : (⟨S128, .f32⟩ : BufTy).Contents (Elt Ideal))
  (x14 : (⟨S128x64, .f32⟩ : BufTy).Contents (Elt Ideal)) (x15 : (⟨S64, .f32⟩ : BufTy).Contents (Elt Ideal))

/-- Row r of the host's product X · W, for an arbitrary left operand X: the sum over the contracted position j of
    X (r, j) · W (j, q). -/
private theorem dot_row (X : FVec Ideal S100000x128 .f32) (W : FVec Ideal S128x128 .f32) (r : Fin 100000) :
    rowOf (Host.dotGeneral (F := Ideal) dot_S100000x128_S128x128_S100000x128_1_0_0_1_n_n none X W) r = mmRow (mat W) (rowOf X r) := by
  funext q
  show Host.dotGeneral (F := Ideal) dot_S100000x128_S128x128_S100000x128_1_0_0_1_n_n none X W (ix2 r q)
    = ∑ j : Fin 128, X (ix2 r j) * W (ix2 j q)
  simp only [Host.dotGeneral]
  exact dotGeneral_ix2 dot_S100000x128_S128x128_S100000x128_1_0_0_1_n_n rfl rfl rfl rfl rfl rfl none _ X W r q

theorem h29_row (r : Fin 100000) :
    rowOf (val_main_v29 (F := Ideal) x0 x2) r = mmRow (mat x2) (rowOf x0 r) := by
  unfold val_main_v29
  exact dot_row x0 x2 r

theorem h71_row (r : Fin 100000) :
    rowOf (val_main_v71 (F := Ideal) x0 x1 x2 x3 x4 x8 x9) r
      = mmRow (mat x4) (rowOf (val_main_v70 (F := Ideal) x0 x1 x2 x3 x8 x9) r) := by
  unfold val_main_v71
  exact dot_row _ x4 r

theorem h113_row (r : Fin 100000) :
    rowOf (val_main_v113 (F := Ideal) x0 x1 x2 x3 x4 x5 x6 x8 x9 x10 x11) r
      = mmRow (mat x6) (rowOf (val_main_v112 (F := Ideal) x0 x1 x2 x3 x4 x5 x8 x9 x10 x11) r) := by
  unfold val_main_v113
  exact dot_row _ x6 r

end Cert.HRows

end
-- ==== Proof.RowsHLN.lean ====
/-
  The reference's two "add bias, rectify, layer-norm" stretches, one row at a time: row r of the result is the layer norm
  of the rectified, biased row r of the aggregated messages. Each stretch is read in small steps — the rectified row, the
  mean column, the deviations (which the reference computes twice), the variance column, the result — every operation at
  an index by its read-at-an-index lemma; the host's sums read as "initial value + sum", the initial value being the zero word.
-/
import proofs.«128363_j22308060135655_1_alg».proof.Proof.Gen.ReferenceIdeal.Read
import proofs.«128363_j22308060135655_1_alg».proof.Proof.Rows
import proofs.«128363_j22308060135655_1_alg».proof.Proof.LibMatmul
import Idealize.ShloMosaic.Lib.ValueLayout

noncomputable section

open scoped BigOperators

namespace Cert.HRows

open Cert.ReferenceIdeal Cert.ReferenceIdeal.Read Cert.Rows Idealize.ShloMosaic Idealize.ShloMosaic.ValueIdx

variable (x0 : (⟨S100000x128, .f32⟩ : BufTy).Contents (Elt Ideal)) (x1 : (⟨S2x1600000, .i32⟩ : BufTy).Contents (Elt Ideal))
  (x2 x4 x6 x12 : (⟨S128x128, .f32⟩ : BufTy).Contents (Elt Ideal))
  (x3 x5 x7 x8 x9 x10 x11 x13 : (⟨S128, .f32⟩ : BufTy).Contents (Elt Ideal))
  (x14 : (⟨S128x64, .f32⟩ : BufTy).Contents (Elt Ideal)) (x15 : (⟨S64, .f32⟩ : BufTy).Contents (Elt Ideal))

/-! ### The stretch ending in val_main_v70 -/

private theorem h70_relu (r : Fin 100000) :
    rowOf (val_main_v46 (F := Ideal) x0 x1 x2 x3) r = biasRelu (vec x3) (rowOf (val_main_v42 (F := Ideal) x0 x1 x2) r) := by
  funext q
  show val_main_v46 (F := Ideal) x0 x1 x2 x3 (ix2 r q) = max ((val_main_v42 (F := Ideal) x0 x1 x2) (ix2 r q) + x3 (ix1 q)) (Ideal.ofBits .f32 0x00000000#32)
  rw [val_main_v46_apply, val_main_v45_apply, val_main_v44_apply, val_main_v43_apply, val_main_call0_v0_apply, val_main_call0_cst_apply]
  have e : idx_main_v43 (idx_main_v44 (ix2 r q)) = ix1 q := funext fun a => Fin.ext (by match a with | ⟨0, _⟩ => rfl)
  rw [e]
  rfl

private theorem h70_mean (r : Fin 100000) (u : Fin 1) :
    val_main_v50 (F := Ideal) x0 x1 x2 x3 (ix2 r u) = mean128 (rowOf (val_main_v46 (F := Ideal) x0 x1 x2 x3) r) := by
  rw [val_main_v50_apply, val_main_v48_apply, val_main_v47_apply, val_main_v49_apply, val_main_cst_9_apply, val_main_cst_8_apply]
  have e : ∀ k : Fin 128, idx_main_v47 (idx_main_v48 (ix2 r u)) k = ix2 r k := fun k =>
    funext fun a => Fin.ext (by match a with | ⟨0, _⟩ => rfl | ⟨1, _⟩ => rfl)
  simp only [e]
  show Ideal.div (Ideal.ofBits .f32 0x00000000#32 + ∑ k : Fin 128, (val_main_v46 (F := Ideal) x0 x1 x2 x3) (ix2 r k)) (Ideal.ofBits .f32 0x43000000#32) = _
  rw [Ideal.ofBits_zero_f32, zero_add]
  rfl

private theorem h70_dev (r : Fin 100000) (q : Fin 128) :
    val_main_v52 (F := Ideal) x0 x1 x2 x3 (ix2 r q) = biasRelu (vec x3) (rowOf (val_main_v42 (F := Ideal) x0 x1 x2) r) q - mean128 (biasRelu (vec x3) (rowOf (val_main_v42 (F := Ideal) x0 x1 x2) r)) := by
  rw [val_main_v52_apply, val_main_v51_apply]
  have e : idx_main_v51 (ix2 r q) = ix2 r (0 : Fin 1) := funext fun a => Fin.ext (by match a with | ⟨0, _⟩ => rfl | ⟨1, _⟩ => rfl)
  rw [e, h70_mean, ← h70_relu]
  rfl

private theorem h70_dev' (r : Fin 100000) (q : Fin 128) :
    val_main_v59 (F := Ideal) x0 x1 x2 x3 (ix2 r q) = biasRelu (vec x3) (rowOf (val_main_v42 (F := Ideal) x0 x1 x2) r) q - mean128 (biasRelu (vec x3) (rowOf (val_main_v42 (F := Ideal) x0 x1 x2) r)) := by
  rw [val_main_v59_apply, val_main_v58_apply]
  have e : idx_main_v58 (ix2 r q) = ix2 r (0 : Fin 1) := funext fun a => Fin.ext (by match a with | ⟨0, _⟩ => rfl | ⟨1, _⟩ => rfl)
  rw [e, h70_mean, ← h70_relu]
  rfl

/-- The variance column: at row r, the mean of the squared deviations. -/
private theorem h70_var (r : Fin 100000) (u : Fin 1) :
    val_main_v57 (F := Ideal) x0 x1 x2 x3 (ix2 r u)
      = mean128 (fun k => (biasRelu (vec x3) (rowOf (val_main_v42 (F := Ideal) x0 x1 x2) r) k - mean128 (biasRelu (vec x3) (rowOf (val_main_v42 (F := Ideal) x0 x1 x2) r)))
          * (biasRelu (vec x3) (rowOf (val_main_v42 (F := Ideal) x0 x1 x2) r) k - mean128 (biasRelu (vec x3) (rowOf (val_main_v42 (F := Ideal) x0 x1 x2) r)))) := by
  rw [val_main_v57_apply, val_main_v55_apply, val_main_v54_apply, val_main_v56_apply, val_main_cst_11_apply, val_main_cst_10_apply]
  have e : ∀ k : Fin 128, idx_main_v54 (idx_main_v55 (ix2 r u)) k = ix2 r k := fun k =>
    funext fun a => Fin.ext (by match a with | ⟨0, _⟩ => rfl | ⟨1, _⟩ => rfl)
  have hs : (∑ k : Fin 128, val_main_v53 (F := Ideal) x0 x1 x2 x3 (idx_main_v54 (idx_main_v55 (ix2 r u)) k))
      = ∑ k : Fin 128, (biasRelu (vec x3) (rowOf (val_main_v42 (F := Ideal) x0 x1 x2) r) k - mean128 (biasRelu (vec x3) (rowOf (val_main_v42 (F := Ideal) x0 x1 x2) r))) * (biasRelu (vec x3) (rowOf (val_main_v42 (F := Ideal) x0 x1 x2) r) k - mean128 (biasRelu (vec x3) (rowOf (val_main_v42 (F := Ideal) x0 x1 x2) r))) :=
    Finset.sum_congr rfl fun k _ => by
      rw [e k, val_main_v53_apply, h70_dev]
      rfl
  rw [hs]
  show Ideal.div (Ideal.ofBits .f32 0x00000000#32 + ∑ k : Fin 128, (biasRelu (vec x3) (rowOf (val_main_v42 (F := Ideal) x0 x1 x2) r) k - mean128 (biasRelu (vec x3) (rowOf (val_main_v42 (F := Ideal) x0 x1 x2) r))) * (biasRelu (vec x3) (rowOf (val_main_v42 (F := Ideal) x0 x1 x2) r) k - mean128 (biasRelu (vec x3) (rowOf (val_main_v42 (F := Ideal) x0 x1 x2) r)))) (Ideal.ofBits .f32 0x43000000#32) = _
  rw [Ideal.ofBits_zero_f32, zero_add]
  rfl

theorem h70_row (r : Fin 100000) :
    rowOf (val_main_v70 (F := Ideal) x0 x1 x2 x3 x8 x9) r
      = lnRow (vec x3) (vec x8) (vec x9) (rowOf (val_main_v42 (F := Ideal) x0 x1 x2) r) := by
  funext q
  show val_main_v70 (F := Ideal) x0 x1 x2 x3 x8 x9 (ix2 r q) = _
  rw [val_main_v70_apply, val_main_v69_apply, val_main_v68_apply, val_main_v67_apply, val_main_v66_apply, val_main_v65_apply, val_main_v64_apply, val_main_v63_apply,
    val_main_cst_12_apply, val_main_v62_apply, val_main_v61_apply, val_main_v60_apply]
  have e1 : idx_main_v68 (idx_main_v69 (ix2 r q)) = ix1 q := funext fun a => Fin.ext (by match a with | ⟨0, _⟩ => rfl)
  have e2 : idx_main_v60 (idx_main_v61 (ix2 r q)) = ix1 q := funext fun a => Fin.ext (by match a with | ⟨0, _⟩ => rfl)
  have e3 : idx_main_v66 (ix2 r q) = ix2 r (0 : Fin 1) := funext fun a => Fin.ext (by match a with | ⟨0, _⟩ => rfl | ⟨1, _⟩ => rfl)
  rw [e1, e2, e3, h70_dev', h70_var]
  rfl

/-! ### The stretch ending in val_main_v112 -/

private theorem h112_relu (r : Fin 100000) :
    rowOf (val_main_v88 (F := Ideal) x0 x1 x2 x3 x4 x5 x8 x9) r = biasRelu (vec x5) (rowOf (val_main_v84 (F := Ideal) x0 x1 x2 x3 x4 x8 x9) r) := by
  funext q
  show val_main_v88 (F := Ideal) x0 x1 x2 x3 x4 x5 x8 x9 (ix2 r q) = max ((val_main_v84 (F := Ideal) x0 x1 x2 x3 x4 x8 x9) (ix2 r q) + x5 (ix1 q)) (Ideal.ofBits .f32 0x00000000#32)
  rw [val_main_v88_apply, val_main_v87_apply, val_main_v86_apply, val_main_v85_apply, val_main_call1_v0_apply, val_main_call1_cst_apply]
  have e : idx_main_v85 (idx_main_v86 (ix2 r q)) = ix1 q := funext fun a => Fin.ext (by match a with | ⟨0, _⟩ => rfl)
  rw [e]
  rfl

private theorem h112_mean (r : Fin 100000) (u : Fin 1) :
    val_main_v92 (F := Ideal) x0 x1 x2 x3 x4 x5 x8 x9 (ix2 r u) = mean128 (rowOf (val_main_v88 (F := Ideal) x0 x1 x2 x3 x4 x5 x8 x9) r) := by
  rw [val_main_v92_apply, val_main_v90_apply, val_main_v89_apply, val_main_v91_apply, val_main_cst_17_apply, val_main_cst_16_apply]
  have e : ∀ k : Fin 128, idx_main_v89 (idx_main_v90 (ix2 r u)) k = ix2 r k := fun k =>
    funext fun a => Fin.ext (by match a with | ⟨0, _⟩ => rfl | ⟨1, _⟩ => rfl)
  simp only [e]
  show Ideal.div (Ideal.ofBits .f32 0x00000000#32 + ∑ k : Fin 128, (val_main_v88 (F := Ideal) x0 x1 x2 x3 x4 x5 x8 x9) (ix2 r k)) (Ideal.ofBits .f32 0x43000000#32) = _
  rw [Ideal.ofBits_zero_f32, zero_add]
  rfl

private theorem h112_dev (r : Fin 100000) (q : Fin 128) :
    val_main_v94 (F := Ideal) x0 x1 x2 x3 x4 x5 x8 x9 (ix2 r q) = biasRelu (vec x5) (rowOf (val_main_v84 (F := Ideal) x0 x1 x2 x3 x4 x8 x9) r) q - mean128 (biasRelu (vec x5) (rowOf (val_main_v84 (F := Ideal) x0 x1 x2 x3 x4 x8 x9) r)) := by
  rw [val_main_v94_apply, val_main_v93_apply]
  have e : idx_main_v93 (ix2 r q) = ix2 r (0 : Fin 1) := funext fun a => Fin.ext (by match a with | ⟨0, _⟩ => rfl | ⟨1, _⟩ => rfl)
  rw [e, h112_mean, ← h112_relu]
  rfl

private theorem h112_dev' (r : Fin 100000) (q : Fin 128) :
    val_main_v101 (F := Ideal) x0 x1 x2 x3 x4 x5 x8 x9 (ix2 r q) = biasRelu (vec x5) (rowOf (val_main_v84 (F := Ideal) x0 x1 x2 x3 x4 x8 x9) r) q - mean128 (biasRelu (vec x5) (rowOf (val_main_v84 (F := Ideal) x0 x1 x2 x3 x4 x8 x9) r)) := by
  rw [val_main_v101_apply, val_main_v100_apply]
  have e : idx_main_v100 (ix2 r q) = ix2 r (0 : Fin 1) := funext fun a => Fin.ext (by match a with | ⟨0, _⟩ => rfl | ⟨1, _⟩ => rfl)
  rw [e, h112_mean, ← h112_relu]
  rfl

/-- The variance column: at row r, the mean of the squared deviations. -/
private theorem h112_var (r : Fin 100000) (u : Fin 1) :
    val_main_v99 (F := Ideal) x0 x1 x2 x3 x4 x5 x8 x9 (ix2 r u)
      = mean128 (fun k => (biasRelu (vec x5) (rowOf (val_main_v84 (F := Ideal) x0 x1 x2 x3 x4 x8 x9) r) k - mean128 (biasRelu (vec x5) (rowOf (val_main_v84 (F := Ideal) x0 x1 x2 x3 x4 x8 x9) r)))
          * (biasRelu (vec x5) (rowOf (val_main_v84 (F := Ideal) x0 x1 x2 x3 x4 x8 x9) r) k - mean128 (biasRelu (vec x5) (rowOf (val_main_v84 (F := Ideal) x0 x1 x2 x3 x4 x8 x9) r)))) := by
  rw [val_main_v99_apply, val_main_v97_apply, val_main_v96_apply, val_main_v98_apply, val_main_cst_19_apply, val_main_cst_18_apply]
  have e : ∀ k : Fin 128, idx_main_v96 (idx_main_v97 (ix2 r u)) k = ix2 r k := fun k =>
    funext fun a => Fin.ext (by match a with | ⟨0, _⟩ => rfl | ⟨1, _⟩ => rfl)
  have hs : (∑ k : Fin 128, val_main_v95 (F := Ideal) x0 x1 x2 x3 x4 x5 x8 x9 (idx_main_v96 (idx_main_v97 (ix2 r u)) k))
      = ∑ k : Fin 128, (biasRelu (vec x5) (rowOf (val_main_v84 (F := Ideal) x0 x1 x2 x3 x4 x8 x9) r) k - mean128 (biasRelu (vec x5) (rowOf (val_main_v84 (F := Ideal) x0 x1 x2 x3 x4 x8 x9) r))) * (biasRelu (vec x5) (rowOf (val_main_v84 (F := Ideal) x0 x1 x2 x3 x4 x8 x9) r) k - mean128 (biasRelu (vec x5) (rowOf (val_main_v84 (F := Ideal) x0 x1 x2 x3 x4 x8 x9) r))) :=
    Finset.sum_congr rfl fun k _ => by
      rw [e k, val_main_v95_apply, h112_dev]
      rfl
  rw [hs]
  show Ideal.div (Ideal.ofBits .f32 0x00000000#32 + ∑ k : Fin 128, (biasRelu (vec x5) (rowOf (val_main_v84 (F := Ideal) x0 x1 x2 x3 x4 x8 x9) r) k - mean128 (biasRelu (vec x5) (rowOf (val_main_v84 (F := Ideal) x0 x1 x2 x3 x4 x8 x9) r))) * (biasRelu (vec x5) (rowOf (val_main_v84 (F := Ideal) x0 x1 x2 x3 x4 x8 x9) r) k - mean128 (biasRelu (vec x5) (rowOf (val_main_v84 (F := Ideal) x0 x1 x2 x3 x4 x8 x9) r)))) (Ideal.ofBits .f32 0x43000000#32) = _
  rw [Ideal.ofBits_zero_f32, zero_add]
  rfl

theorem h112_row (r : Fin 100000) :
    rowOf (val_main_v112 (F := Ideal) x0 x1 x2 x3 x4 x5 x8 x9 x10 x11) r
      = lnRow (vec x5) (vec x10) (vec x11) (rowOf (val_main_v84 (F := Ideal) x0 x1 x2 x3 x4 x8 x9) r) := by
  funext q
  show val_main_v112 (F := Ideal) x0 x1 x2 x3 x4 x5 x8 x9 x10 x11 (ix2 r q) = _
  rw [val_main_v112_apply, val_main_v111_apply, val_main_v110_apply, val_main_v109_apply, val_main_v108_apply, val_main_v107_apply, val_main_v106_apply, val_main_v105_apply,
    val_main_cst_20_apply, val_main_v104_apply, val_main_v103_apply, val_main_v102_apply]
  have e1 : idx_main_v110 (idx_main_v111 (ix2 r q)) = ix1 q := funext fun a => Fin.ext (by match a with | ⟨0, _⟩ => rfl)
  have e2 : idx_main_v102 (idx_main_v103 (ix2 r q)) = ix1 q := funext fun a => Fin.ext (by match a with | ⟨0, _⟩ => rfl)
  have e3 : idx_main_v108 (ix2 r q) = ix2 r (0 : Fin 1) := funext fun a => Fin.ext (by match a with | ⟨0, _⟩ => rfl | ⟨1, _⟩ => rfl)
  rw [e1, e2, e3, h112_dev', h112_var]
  rfl

end Cert.HRows

end
-- ==== Proof.RowsHHead.lean ====
/-
  The reference's last stretches, one row at a time: the third layer's bias + rectifier, and the two-layer head with the
  logistic written out as 1 / (1 + exp(−z)).
-/
import proofs.«128363_j22308060135655_1_alg».proof.Proof.Gen.ReferenceIdeal.Read
import proofs.«128363_j22308060135655_1_alg».proof.Proof.Rows
import proofs.«128363_j22308060135655_1_alg».proof.Proof.LibMatmul
import Idealize.ShloMosaic.Lib.ValueLayout

noncomputable section

open scoped BigOperators

namespace Cert.HRows

open Cert.ReferenceIdeal Cert.ReferenceIdeal.Read Cert.Rows Idealize.ShloMosaic Idealize.ShloMosaic.ValueIdx

variable (x0 : (⟨S100000x128, .f32⟩ : BufTy).Contents (Elt Ideal)) (x1 : (⟨S2x1600000, .i32⟩ : BufTy).Contents (Elt Ideal))
  (x2 x4 x6 x12 : (⟨S128x128, .f32⟩ : BufTy).Contents (Elt Ideal))
  (x3 x5 x7 x8 x9 x10 x11 x13 : (⟨S128, .f32⟩ : BufTy).Contents (Elt Ideal))
  (x14 : (⟨S128x64, .f32⟩ : BufTy).Contents (Elt Ideal)) (x15 : (⟨S64, .f32⟩ : BufTy).Contents (Elt Ideal))

/-- The word of 1.0 denotes the extended real 1. -/
private theorem ofBits_one_f32 : Ideal.ofBits .f32 0x3F800000#32 = 1 := by
  simp [Ideal.ofBits, Ideal.ieee, -EReal.coe_mul]; norm_num

/-- A vector broadcast first to one row and then over the rows is read, at (r, q), at its position q. -/
private theorem idx_row_vec_128 (r : Fin 100000) (q : Fin 128) :
    idx_main_v127 (idx_main_v128 (ix2 r q)) = ix1 q :=
  funext fun a => Fin.ext (by match a with | ⟨0, _⟩ => rfl)

theorem h130_row (r : Fin 100000) :
    rowOf (val_main_v130 (F := Ideal) x0 x1 x2 x3 x4 x5 x6 x7 x8 x9 x10 x11) r
      = biasRelu (vec x7) (rowOf (val_main_v126 (F := Ideal) x0 x1 x2 x3 x4 x5 x6 x8 x9 x10 x11) r) := by
  funext q
  -- entry q of the row: max(u(r, q) + b(q), 0), the zero kept as its word
  show val_main_v130 (F := Ideal) x0 x1 x2 x3 x4 x5 x6 x7 x8 x9 x10 x11 (ix2 r q)
    = max (val_main_v126 (F := Ideal) x0 x1 x2 x3 x4 x5 x6 x8 x9 x10 x11 (ix2 r q) + x7 (ix1 q))
        (Ideal.ofBits .f32 0x00000000#32)
  rw [val_main_v130_apply, val_main_v129_apply, val_main_v128_apply, val_main_v127_apply, val_main_call2_v0_apply,
    val_main_call2_cst_apply, idx_row_vec_128]
  simp only [Ideal.maximumf_def, Ideal.addf_def, Ideal.ofBits_def]

/-- The bias of the head's first layer, broadcast to one row and then over the rows, read at (r, j). -/
private theorem idx_row_vec_b1 (r : Fin 100000) (j : Fin 128) :
    idx_main_v132 (idx_main_v133 (ix2 r j)) = ix1 j :=
  funext fun a => Fin.ext (by match a with | ⟨0, _⟩ => rfl)

/-- The bias of the head's second layer, broadcast to one row and then over the rows, read at (r, q). -/
private theorem idx_row_vec_b2 (r : Fin 100000) (q : Fin 64) :
    idx_main_v136 (idx_main_v137 (ix2 r q)) = ix1 q :=
  funext fun a => Fin.ext (by match a with | ⟨0, _⟩ => rfl)

/-- The head's first product at (r, j): row r of the rectified input against column j of the first weight matrix. -/
private theorem v131_ix2 (r : Fin 100000) (j : Fin 128) :
    val_main_v131 (F := Ideal) x0 x1 x2 x3 x4 x5 x6 x7 x8 x9 x10 x11 x12 (ix2 r j)
      = ∑ i : Fin 128, val_main_v130 (F := Ideal) x0 x1 x2 x3 x4 x5 x6 x7 x8 x9 x10 x11 (ix2 r i) * x12 (ix2 i j) := by
  unfold val_main_v131
  exact dotGeneral_ix2 (φ₁ := .f32) (φ₂ := .f32) dot_S100000x128_S128x128_S100000x128_1_0_0_1_n_n rfl rfl rfl rfl rfl rfl
    none _ _ _ r j

/-- The head's second product at (r, q): row r of the hidden layer against column q of the second weight matrix. -/
private theorem v135_ix2 (r : Fin 100000) (q : Fin 64) :
    val_main_v135 (F := Ideal) x0 x1 x2 x3 x4 x5 x6 x7 x8 x9 x10 x11 x12 x13 x14 (ix2 r q)
      = ∑ j : Fin 128, val_main_v134 (F := Ideal) x0 x1 x2 x3 x4 x5 x6 x7 x8 x9 x10 x11 x12 x13 (ix2 r j) * x14 (ix2 j q) := by
  unfold val_main_v135
  exact dotGeneral_ix2 (φ₁ := .f32) (φ₂ := .f32) dot_S100000x128_S128x64_S100000x64_1_0_0_1_n_n rfl rfl rfl rfl rfl rfl
    none _ _ _ r q

theorem h144_row (r : Fin 100000) :
    rowOf (val_main_v144 (F := Ideal) x0 x1 x2 x3 x4 x5 x6 x7 x8 x9 x10 x11 x12 x13 x14 x15) r
      = headRow (mat x12) (vec x13) (mat x14) (vec x15) (rowOf (val_main_v130 (F := Ideal) x0 x1 x2 x3 x4 x5 x6 x7 x8 x9 x10 x11) r) := by
  funext q
  -- entry q of the row: 1 / (1 + exp(−z)) with z = Σ_j (Σ_i u(r, i) · W₁(i, j) + b₁(j)) · W₂(j, q) + b₂(q),
  -- which is the logistic of z by definition
  show val_main_v144 (F := Ideal) x0 x1 x2 x3 x4 x5 x6 x7 x8 x9 x10 x11 x12 x13 x14 x15 (ix2 r q)
    = Ideal.div 1 (1 + Ideal.exp (-((∑ j : Fin 128,
        ((∑ i : Fin 128, val_main_v130 (F := Ideal) x0 x1 x2 x3 x4 x5 x6 x7 x8 x9 x10 x11 (ix2 r i) * x12 (ix2 i j)) + x13 (ix1 j))
          * x14 (ix2 j q)) + x15 (ix1 q))))
  rw [val_main_v144_apply, val_main_v143_apply, val_main_cst_25_apply, val_main_v142_apply, val_main_v141_apply,
    val_main_cst_24_apply, val_main_v140_apply, val_main_v139_apply, val_main_v138_apply, val_main_v137_apply,
    val_main_v136_apply, idx_row_vec_b2, v135_ix2]
  -- the host's operations are the extended reals'; both constants are the word of 1.0
  simp only [Ideal.hostDivf_def, Ideal.addf_def, Ideal.hostUnary_exp_def, Ideal.hostNegf_def, Ideal.negf_def,
    Ideal.ofBits_def, ofBits_one_f32]
  refine congrArg (fun z => Ideal.div 1 (1 + Ideal.exp (-(z + x15 (ix1 q))))) ?_
  refine Finset.sum_congr rfl fun j _ => ?_
  -- the hidden entry (r, j): the first product plus its bias
  rw [val_main_v134_apply, val_main_v133_apply, val_main_v132_apply, idx_row_vec_b1, v131_ix2]
  simp only [Ideal.addf_def]

end Cert.HRows

end
-- ==== Proof.Chain.lean ====
/-
  The kernel program's buffers at every segment boundary of @main, identified with the reference's stages: after each
  stretch of host operations and each region, the buffer that carries the network's activations holds the reference's
  value of the same layer, as a function of the launch contents of the argument arrays. The graph part (gather along the
  edges, scale, scatter-add per target) is the same operations on both sides and is never opened; a region's array is
  read off its blocks, whose rows are the reference's rows.
-/
import proofs.«128363_j22308060135655_1_alg».proof.Proof.KernelRunAll
import proofs.«128363_j22308060135655_1_alg».proof.Proof.Keep
import proofs.«128363_j22308060135655_1_alg».proof.Proof.Regions0
import proofs.«128363_j22308060135655_1_alg».proof.Proof.Regions1
import proofs.«128363_j22308060135655_1_alg».proof.Proof.Regions2
import proofs.«128363_j22308060135655_1_alg».proof.Proof.RowsHMM
import proofs.«128363_j22308060135655_1_alg».proof.Proof.RowsHLN
import proofs.«128363_j22308060135655_1_alg».proof.Proof.RowsHHead
import Idealize.ShloMosaic.Lib.ValueLayout

set_option maxRecDepth 16384

noncomputable section

namespace Cert.KValue

open Cert.KernelIdeal Cert.KernelIdeal.Gen Cert.Rows
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The edge lists and the edge weights: written once by the first stretch, kept by every later segment -/

set_option maxHeartbeats 2000000 in
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp <;> rfl
theorem W2_v3 : W2 m ρ c (Proc.devRef .tc main_v3) = Cert.ReferenceIdeal.Read.val_main_v3 (F := Ideal) (m ((c : Thread nD τ).loc main_arg1)) := (keep2 m ρ c main_v3 (by decide)).trans (W1_v3 m ρ c)
theorem W3_v3 : W3 m ρ c (Proc.devRef .tc main_v3) = Cert.ReferenceIdeal.Read.val_main_v3 (F := Ideal) (m ((c : Thread nD τ).loc main_arg1)) := (keep3 m ρ c main_v3 (by decide)).trans (W2_v3 m ρ c)
theorem W4_v3 : W4 m ρ c (Proc.devRef .tc main_v3) = Cert.ReferenceIdeal.Read.val_main_v3 (F := Ideal) (m ((c : Thread nD τ).loc main_arg1)) := (keep4 m ρ c main_v3 (by decide)).trans (W3_v3 m ρ c)
theorem W5_v3 : W5 m ρ c (Proc.devRef .tc main_v3) = Cert.ReferenceIdeal.Read.val_main_v3 (F := Ideal) (m ((c : Thread nD τ).loc main_arg1)) := (keep5 m ρ c main_v3 (by decide)).trans (W4_v3 m ρ c)
theorem W6_v3 : W6 m ρ c (Proc.devRef .tc main_v3) = Cert.ReferenceIdeal.Read.val_main_v3 (F := Ideal) (m ((c : Thread nD τ).loc main_arg1)) := (keep6 m ρ c main_v3 (by decide)).trans (W5_v3 m ρ c)
theorem W7_v3 : W7 m ρ c (Proc.devRef .tc main_v3) = Cert.ReferenceIdeal.Read.val_main_v3 (F := Ideal) (m ((c : Thread nD τ).loc main_arg1)) := (keep7 m ρ c main_v3 (by decide)).trans (W6_v3 m ρ c)
theorem W8_v3 : W8 m ρ c (Proc.devRef .tc main_v3) = Cert.ReferenceIdeal.Read.val_main_v3 (F := Ideal) (m ((c : Thread nD τ).loc main_arg1)) := (keep8 m ρ c main_v3 (by decide)).trans (W7_v3 m ρ c)

set_option maxHeartbeats 2000000 in
theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]
  after_results_simp <;> rfl
theorem W2_v6 : W2 m ρ c (Proc.devRef .tc main_v6) = Cert.ReferenceIdeal.Read.val_main_v6 (F := Ideal) (m ((c : Thread nD τ).loc main_arg1)) := (keep2 m ρ c main_v6 (by decide)).trans (W1_v6 m ρ c)
theorem W3_v6 : W3 m ρ c (Proc.devRef .tc main_v6) = Cert.ReferenceIdeal.Read.val_main_v6 (F := Ideal) (m ((c : Thread nD τ).loc main_arg1)) := (keep3 m ρ c main_v6 (by decide)).trans (W2_v6 m ρ c)
theorem W4_v6 : W4 m ρ c (Proc.devRef .tc main_v6) = Cert.ReferenceIdeal.Read.val_main_v6 (F := Ideal) (m ((c : Thread nD τ).loc main_arg1)) := (keep4 m ρ c main_v6 (by decide)).trans (W3_v6 m ρ c)
theorem W5_v6 : W5 m ρ c (Proc.devRef .tc main_v6) = Cert.ReferenceIdeal.Read.val_main_v6 (F := Ideal) (m ((c : Thread nD τ).loc main_arg1)) := (keep5 m ρ c main_v6 (by decide)).trans (W4_v6 m ρ c)
theorem W6_v6 : W6 m ρ c (Proc.devRef .tc main_v6) = Cert.ReferenceIdeal.Read.val_main_v6 (F := Ideal) (m ((c : Thread nD τ).loc main_arg1)) := (keep6 m ρ c main_v6 (by decide)).trans (W5_v6 m ρ c)
theorem W7_v6 : W7 m ρ c (Proc.devRef .tc main_v6) = Cert.ReferenceIdeal.Read.val_main_v6 (F := Ideal) (m ((c : Thread nD τ).loc main_arg1)) := (keep7 m ρ c main_v6 (by decide)).trans (W6_v6 m ρ c)
theorem W8_v6 : W8 m ρ c (Proc.devRef .tc main_v6) = Cert.ReferenceIdeal.Read.val_main_v6 (F := Ideal) (m ((c : Thread nD τ).loc main_arg1)) := (keep8 m ρ c main_v6 (by decide)).trans (W7_v6 m ρ c)

set_option maxHeartbeats 2000000 in
theorem W1_v28 : W1 m ρ c (Proc.devRef .tc main_v28) = Cert.ReferenceIdeal.Read.val_main_v28 (F := Ideal) (m ((c : Thread nD τ).loc main_arg1)) := by
  show StableHlo.after hostOps0 (W0 m ρ c) (Proc.devRef .tc main_v28) = _
  dsimp only [hostOps0]
  after_results_simp <;> rfl
theorem W2_v28 : W2 m ρ c (Proc.devRef .tc main_v28) = Cert.ReferenceIdeal.Read.val_main_v28 (F := Ideal) (m ((c : Thread nD τ).loc main_arg1)) := (keep2 m ρ c main_v28 (by decide)).trans (W1_v28 m ρ c)
theorem W3_v28 : W3 m ρ c (Proc.devRef .tc main_v28) = Cert.ReferenceIdeal.Read.val_main_v28 (F := Ideal) (m ((c : Thread nD τ).loc main_arg1)) := (keep3 m ρ c main_v28 (by decide)).trans (W2_v28 m ρ c)
theorem W4_v28 : W4 m ρ c (Proc.devRef .tc main_v28) = Cert.ReferenceIdeal.Read.val_main_v28 (F := Ideal) (m ((c : Thread nD τ).loc main_arg1)) := (keep4 m ρ c main_v28 (by decide)).trans (W3_v28 m ρ c)
theorem W5_v28 : W5 m ρ c (Proc.devRef .tc main_v28) = Cert.ReferenceIdeal.Read.val_main_v28 (F := Ideal) (m ((c : Thread nD τ).loc main_arg1)) := (keep5 m ρ c main_v28 (by decide)).trans (W4_v28 m ρ c)
theorem W6_v28 : W6 m ρ c (Proc.devRef .tc main_v28) = Cert.ReferenceIdeal.Read.val_main_v28 (F := Ideal) (m ((c : Thread nD τ).loc main_arg1)) := (keep6 m ρ c main_v28 (by decide)).trans (W5_v28 m ρ c)
theorem W7_v28 : W7 m ρ c (Proc.devRef .tc main_v28) = Cert.ReferenceIdeal.Read.val_main_v28 (F := Ideal) (m ((c : Thread nD τ).loc main_arg1)) := (keep7 m ρ c main_v28 (by decide)).trans (W6_v28 m ρ c)
theorem W8_v28 : W8 m ρ c (Proc.devRef .tc main_v28) = Cert.ReferenceIdeal.Read.val_main_v28 (F := Ideal) (m ((c : Thread nD τ).loc main_arg1)) := (keep8 m ρ c main_v28 (by decide)).trans (W7_v28 m ρ c)

/-! ## Layer 1 -/

/-- Region 0: x · W1. -/
theorem W2_v29 : W2 m ρ c (Proc.devRef .tc main_v29) = Cert.ReferenceIdeal.Read.val_main_v29 (F := Ideal) (m ((c : Thread nD τ).loc main_arg0)) (m ((c : Thread nD τ).loc main_arg2)) :=
  (W2_arr m ρ c 2).trans (region0_value (V1 m ρ) c _ (fun r => by
    show rowOf _ r = mmRow (mat (W1 m ρ c (Proc.devRef .tc main_arg2))) (rowOf (W1 m ρ c (Proc.devRef .tc main_arg0)) r)
    rw [launched1 m ρ c main_arg2 (by decide), launched1 m ρ c main_arg0 (by decide)]
    exact Cert.HRows.h29_row _ _ r))

set_option maxHeartbeats 2000000 in
/-- The messages gathered along the edges, scaled and summed per target node, from the product before it. -/
theorem W3_v42 : W3 m ρ c (Proc.devRef .tc main_v42) = Cert.ReferenceIdeal.Read.val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  dsimp only [hostOps1]
  after_results_simp
  rw [W2_v29 m ρ c, W2_v3 m ρ c, W2_v6 m ρ c, W2_v28 m ρ c]
  rfl

set_option maxHeartbeats 2000000 in
/-- The reshaped argument row. -/
theorem W3_v43_row : row1 (W3 m ρ c (Proc.devRef .tc main_v43) : S1x128.Idx → EReal) = vec (m ((c : Thread nD τ).loc main_arg3)) := by
  have e : W3 m ρ c (Proc.devRef .tc main_v43) = shapeCast S1x128 (W2 m ρ c (Proc.devRef .tc main_arg3)) shapeCasts_S128_S1x128 := by
    show StableHlo.after hostOps1 (W2 m ρ c) (Proc.devRef .tc main_v43) = _
    dsimp only [hostOps1]
    after_results_simp <;> rfl
  rw [e, launched2 m ρ c main_arg3 (by decide) (by decide)]
  funext q
  exact shapeCast_a_1a_apply _ _ (0 : Fin 1) q

set_option maxHeartbeats 2000000 in
/-- The reshaped argument row. -/
theorem W3_v44_row : row1 (W3 m ρ c (Proc.devRef .tc main_v44) : S1x128.Idx → EReal) = vec (m ((c : Thread nD τ).loc main_arg8)) := by
  have e : W3 m ρ c (Proc.devRef .tc main_v44) = shapeCast S1x128 (W2 m ρ c (Proc.devRef .tc main_arg8)) shapeCasts_S128_S1x128 := by
    show StableHlo.after hostOps1 (W2 m ρ c) (Proc.devRef .tc main_v44) = _
    dsimp only [hostOps1]
    after_results_simp <;> rfl
  rw [e, launched2 m ρ c main_arg8 (by decide) (by decide)]
  funext q
  exact shapeCast_a_1a_apply _ _ (0 : Fin 1) q

set_option maxHeartbeats 2000000 in
/-- The reshaped argument row. -/
theorem W3_v45_row : row1 (W3 m ρ c (Proc.devRef .tc main_v45) : S1x128.Idx → EReal) = vec (m ((c : Thread nD τ).loc main_arg9)) := by
  have e : W3 m ρ c (Proc.devRef .tc main_v45) = shapeCast S1x128 (W2 m ρ c (Proc.devRef .tc main_arg9)) shapeCasts_S128_S1x128 := by
    show StableHlo.after hostOps1 (W2 m ρ c) (Proc.devRef .tc main_v45) = _
    dsimp only [hostOps1]
    after_results_simp <;> rfl
  rw [e, launched2 m ρ c main_arg9 (by decide) (by decide)]
  funext q
  exact shapeCast_a_1a_apply _ _ (0 : Fin 1) q

/-- Region 1: bias, rectifier, layer norm. -/
theorem W4_v46 : W4 m ρ c (Proc.devRef .tc main_v46) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) :=
  (W4_arr m ρ c 4).trans (region1_value (V3 m ρ) c _ (fun r => by
    show rowOf _ r = lnRow (row1 (W3 m ρ c (Proc.devRef .tc main_v43))) (row1 (W3 m ρ c (Proc.devRef .tc main_v44))) (row1 (W3 m ρ c (Proc.devRef .tc main_v45))) (rowOf (W3 m ρ c (Proc.devRef .tc main_v42)) r)
    rw [W3_v43_row m ρ c, W3_v44_row m ρ c, W3_v45_row m ρ c, W3_v42 m ρ c]
    exact Cert.HRows.h70_row _ _ _ _ _ _ r))

/-! ## Layer 2 -/

/-- Region 2: h · W2. -/
theorem W5_v47 : W5 m ρ c (Proc.devRef .tc main_v47) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  (W5_arr m ρ c 2).trans (region2_value (V4 m ρ) c _ (fun r => by
    show rowOf _ r = mmRow (mat (W4 m ρ c (Proc.devRef .tc main_arg4))) (rowOf (W4 m ρ c (Proc.devRef .tc main_v46)) r)
    rw [launched4 m ρ c main_arg4 (by decide) (by decide) (by decide) (by decide), W4_v46 m ρ c]
    exact Cert.HRows.h71_row _ _ _ _ _ _ _ r))

set_option maxHeartbeats 2000000 in
/-- The messages gathered along the edges, scaled and summed per target node, from the product before it. -/
theorem W6_v60 : W6 m ρ c (Proc.devRef .tc main_v60) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  show StableHlo.after hostOps3 (W5 m ρ c) (Proc.devRef .tc main_v60) = _
  dsimp only [hostOps3]
  after_results_simp
  rw [W5_v47 m ρ c, W5_v3 m ρ c, W5_v6 m ρ c, W5_v28 m ρ c]
  rfl

set_option maxHeartbeats 2000000 in
/-- The reshaped argument row. -/
theorem W6_v61_row : row1 (W6 m ρ c (Proc.devRef .tc main_v61) : S1x128.Idx → EReal) = vec (m ((c : Thread nD τ).loc main_arg5)) := by
  have e : W6 m ρ c (Proc.devRef .tc main_v61) = shapeCast S1x128 (W5 m ρ c (Proc.devRef .tc main_arg5)) shapeCasts_S128_S1x128 := by
    show StableHlo.after hostOps3 (W5 m ρ c) (Proc.devRef .tc main_v61) = _
    dsimp only [hostOps3]
    after_results_simp <;> rfl
  rw [e, launched5 m ρ c main_arg5 (by decide) (by decide) (by decide) (by decide) (by decide)]
  funext q
  exact shapeCast_a_1a_apply _ _ (0 : Fin 1) q

set_option maxHeartbeats 2000000 in
/-- The reshaped argument row. -/
theorem W6_v62_row : row1 (W6 m ρ c (Proc.devRef .tc main_v62) : S1x128.Idx → EReal) = vec (m ((c : Thread nD τ).loc main_arg10)) := by
  have e : W6 m ρ c (Proc.devRef .tc main_v62) = shapeCast S1x128 (W5 m ρ c (Proc.devRef .tc main_arg10)) shapeCasts_S128_S1x128 := by
    show StableHlo.after hostOps3 (W5 m ρ c) (Proc.devRef .tc main_v62) = _
    dsimp only [hostOps3]
    after_results_simp <;> rfl
  rw [e, launched5 m ρ c main_arg10 (by decide) (by decide) (by decide) (by decide) (by decide)]
  funext q
  exact shapeCast_a_1a_apply _ _ (0 : Fin 1) q

set_option maxHeartbeats 2000000 in
/-- The reshaped argument row. -/
theorem W6_v63_row : row1 (W6 m ρ c (Proc.devRef .tc main_v63) : S1x128.Idx → EReal) = vec (m ((c : Thread nD τ).loc main_arg11)) := by
  have e : W6 m ρ c (Proc.devRef .tc main_v63) = shapeCast S1x128 (W5 m ρ c (Proc.devRef .tc main_arg11)) shapeCasts_S128_S1x128 := by
    show StableHlo.after hostOps3 (W5 m ρ c) (Proc.devRef .tc main_v63) = _
    dsimp only [hostOps3]
    after_results_simp <;> rfl
  rw [e, launched5 m ρ c main_arg11 (by decide) (by decide) (by decide) (by decide) (by decide)]
  funext q
  exact shapeCast_a_1a_apply _ _ (0 : Fin 1) q

/-- Region 3: bias, rectifier, layer norm. -/
theorem W7_v64 : W7 m ρ c (Proc.devRef .tc main_v64) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) :=
  (W7_arr m ρ c 4).trans (region3_value (V6 m ρ) c _ (fun r => by
    show rowOf _ r = lnRow (row1 (W6 m ρ c (Proc.devRef .tc main_v61))) (row1 (W6 m ρ c (Proc.devRef .tc main_v62))) (row1 (W6 m ρ c (Proc.devRef .tc main_v63))) (rowOf (W6 m ρ c (Proc.devRef .tc main_v60)) r)
    rw [W6_v61_row m ρ c, W6_v62_row m ρ c, W6_v63_row m ρ c, W6_v60 m ρ c]
    exact Cert.HRows.h112_row _ _ _ _ _ _ _ _ _ _ r))

/-! ## Layer 3 -/

/-- Region 4: h · W3. -/
theorem W8_v65 : W8 m ρ c (Proc.devRef .tc main_v65) = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) :=
  (W8_arr m ρ c 2).trans (region4_value (V7 m ρ) c _ (fun r => by
    show rowOf _ r = mmRow (mat (W7 m ρ c (Proc.devRef .tc main_arg6))) (rowOf (W7 m ρ c (Proc.devRef .tc main_v64)) r)
    rw [launched7 m ρ c main_arg6 (by decide) (by decide) (by decide) (by decide) (by decide) (by decide) (by decide), W7_v64 m ρ c]
    exact Cert.HRows.h113_row _ _ _ _ _ _ _ _ _ _ _ r))

set_option maxHeartbeats 2000000 in
/-- The messages gathered along the edges, scaled and summed per target node, from the product before it. -/
theorem W9_v78 : W9 m ρ c (Proc.devRef .tc main_v78) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v78) = _
  dsimp only [hostOps5]
  after_results_simp
  rw [W8_v65 m ρ c, W8_v3 m ρ c, W8_v6 m ρ c, W8_v28 m ρ c]
  rfl

set_option maxHeartbeats 2000000 in
/-- The reshaped argument row. -/
theorem W9_v79_row : row1 (W9 m ρ c (Proc.devRef .tc main_v79) : S1x128.Idx → EReal) = vec (m ((c : Thread nD τ).loc main_arg7)) := by
  have e : W9 m ρ c (Proc.devRef .tc main_v79) = shapeCast S1x128 (W8 m ρ c (Proc.devRef .tc main_arg7)) shapeCasts_S128_S1x128 := by
    show StableHlo.after hostOps5 (W8 m ρ c) (Proc.devRef .tc main_v79) = _
    dsimp only [hostOps5]
    after_results_simp <;> rfl
  rw [e, launched8 m ρ c main_arg7 (by decide) (by decide) (by decide) (by decide) (by decide) (by decide) (by decide) (by decide)]
  funext q
  exact shapeCast_a_1a_apply _ _ (0 : Fin 1) q

/-- Region 5: bias, rectifier. -/
theorem W10_v80 : W10 m ρ c (Proc.devRef .tc main_v80) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W10_arr m ρ c 2).trans (region5_value (V9 m ρ) c _ (fun r => by
    show rowOf _ r = biasRelu (row1 (W9 m ρ c (Proc.devRef .tc main_v79))) (rowOf (W9 m ρ c (Proc.devRef .tc main_v78)) r)
    rw [W9_v79_row m ρ c, W9_v78 m ρ c]
    exact Cert.HRows.h130_row _ _ _ _ _ _ _ _ _ _ _ _ r))

/-! ## The head -/

theorem W11_v80 : W11 m ρ c (Proc.devRef .tc main_v80) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (keep11 m ρ c main_v80 (by decide)).trans (W10_v80 m ρ c)
set_option maxHeartbeats 2000000 in
/-- The reshaped argument row. -/
theorem W11_v81_row : row1 (W11 m ρ c (Proc.devRef .tc main_v81) : S1x128.Idx → EReal) = vec (m ((c : Thread nD τ).loc main_arg13)) := by
  have e : W11 m ρ c (Proc.devRef .tc main_v81) = shapeCast S1x128 (W10 m ρ c (Proc.devRef .tc main_arg13)) shapeCasts_S128_S1x128 := by
    show StableHlo.after hostOps6 (W10 m ρ c) (Proc.devRef .tc main_v81) = _
    dsimp only [hostOps6]
    after_results_simp <;> rfl
  rw [e, launched10 m ρ c main_arg13 (by decide) (by decide) (by decide) (by decide) (by decide) (by decide) (by decide) (by decide) (by decide) (by decide)]
  funext q
  exact shapeCast_a_1a_apply _ _ (0 : Fin 1) q

set_option maxHeartbeats 2000000 in
/-- The reshaped argument row. -/
theorem W11_v82_row : row1 (W11 m ρ c (Proc.devRef .tc main_v82) : S1x64.Idx → EReal) = vec (m ((c : Thread nD τ).loc main_arg15)) := by
  have e : W11 m ρ c (Proc.devRef .tc main_v82) = shapeCast S1x64 (W10 m ρ c (Proc.devRef .tc main_arg15)) shapeCasts_S64_S1x64 := by
    show StableHlo.after hostOps6 (W10 m ρ c) (Proc.devRef .tc main_v82) = _
    dsimp only [hostOps6]
    after_results_simp <;> rfl
  rw [e, launched10 m ρ c main_arg15 (by decide) (by decide) (by decide) (by decide) (by decide) (by decide) (by decide) (by decide) (by decide) (by decide)]
  funext q
  exact shapeCast_a_1a_apply _ _ (0 : Fin 1) q

/-- Region 6: the two-layer head and the logistic: THE RESULT of the kernel program. -/
theorem W12_v83 : W12 m ρ c (Proc.devRef .tc main_v83) = Cert.ReferenceIdeal.Read.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W12_arr m ρ c 5).trans (region6_value (V11 m ρ) c _ (fun r => by
    show rowOf _ r = headRow (mat (W11 m ρ c (Proc.devRef .tc main_arg12))) (row1 (W11 m ρ c (Proc.devRef .tc main_v81))) (mat (W11 m ρ c (Proc.devRef .tc main_arg14))) (row1 (W11 m ρ c (Proc.devRef .tc main_v82))) (rowOf (W11 m ρ c (Proc.devRef .tc main_v80)) r)
    rw [launched11 m ρ c main_arg12 (by decide) (by decide) (by decide) (by decide) (by decide) (by decide) (by decide) (by decide) (by decide) (by decide) (by decide), launched11 m ρ c main_arg14 (by decide) (by decide) (by decide) (by decide) (by decide) (by decide) (by decide) (by decide) (by decide) (by decide) (by decide), W11_v81_row m ρ c, W11_v82_row m ρ c, W11_v80 m ρ c]
    exact Cert.HRows.h144_row _ _ _ _ _ _ _ _ _ _ _ _ _ _ _ _ r))

end Cert.KValue

end
-- ==== Proof.lean ====
/-
  The claim. The kernel computes a three-layer graph convolution network (each layer: a dense product with a weight
  matrix, messages gathered along the edges and scaled by the symmetric degree weights, summed per target node; then bias,
  rectifier and — in the first two layers — a layer norm over the 128 features) and a two-layer head with a logistic,
  its dense stages tiled over the 100000 nodes in 25 blocks of 4000 rows. The reference computes the same formula on whole
  arrays. On extended reals the two agree operation for operation: every dense stage is a function of ONE row (one node) and
  of small resident operands, so a block's rows are the whole array's rows; the graph stages between are the same host
  operations on both sides. No finiteness of the inputs is used.

  The three frames: the two kernel programs' are the generated frame certificates; the reference's is its generated run with
  the result dropped. The ideal pass changed nothing (empty ledger), so the idealization claim is trivial. The algebraic claim
  pairs the kernel program's run, whose result buffer holds the reference's last stage of the launch contents
  (Chain.lean), with the reference's generated run.
-/
import proofs.«128363_j22308060135655_1_alg».proof.Defs
import proofs.«128363_j22308060135655_1_alg».proof.Proof.Gen.Kernel
import proofs.«128363_j22308060135655_1_alg».proof.Proof.Gen.Kernel.Frame
import proofs.«128363_j22308060135655_1_alg».proof.Proof.Gen.KernelIdeal
import proofs.«128363_j22308060135655_1_alg».proof.Proof.Gen.KernelIdeal.Frame
import proofs.«128363_j22308060135655_1_alg».proof.Proof.Gen.ReferenceIdeal
import proofs.«128363_j22308060135655_1_alg».proof.Proof.Gen.ReferenceIdeal.Run
import proofs.«128363_j22308060135655_1_alg».proof.Proof.Gen.ReferenceIdeal.Read
import proofs.«128363_j22308060135655_1_alg».proof.Proof.Gen.Pre_finite_inputs
import proofs.«128363_j22308060135655_1_alg».proof.Proof.KernelRunAll
import proofs.«128363_j22308060135655_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) argument arrays in their result buffer. -/
theorem algebraic : Cert.algebraic_KernelIdeal_ReferenceIdeal := by
  intro m ρ m' ρ' _ hagree
  refine ⟨fun c => Cert.ReferenceIdeal.Read.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c =>
      ⟨(h c _ (Cert.KernelIdeal.Gen.mem_uc Cert.KernelIdeal.main_v83 (by decide))).trans (Cert.KValue.W12_v83 m ρ c),
       (h c _ (Cert.KernelIdeal.Gen.mem_uc Cert.KernelIdeal.main_arg0 (by decide))).trans (Cert.KernelIdeal.Gen.W12_main_arg0 m ρ c),
       (h c _ (Cert.KernelIdeal.Gen.mem_uc Cert.KernelIdeal.main_arg1 (by decide))).trans (Cert.KernelIdeal.Gen.W12_main_arg1 m ρ c),
       (h c _ (Cert.KernelIdeal.Gen.mem_uc Cert.KernelIdeal.main_arg2 (by decide))).trans (Cert.KernelIdeal.Gen.W12_main_arg2 m ρ c),
       (h c _ (Cert.KernelIdeal.Gen.mem_uc Cert.KernelIdeal.main_arg3 (by decide))).trans (Cert.KernelIdeal.Gen.W12_main_arg3 m ρ c),
       (h c _ (Cert.KernelIdeal.Gen.mem_uc Cert.KernelIdeal.main_arg4 (by decide))).trans (Cert.KernelIdeal.Gen.W12_main_arg4 m ρ c),
       (h c _ (Cert.KernelIdeal.Gen.mem_uc Cert.KernelIdeal.main_arg5 (by decide))).trans (Cert.KernelIdeal.Gen.W12_main_arg5 m ρ c),
       (h c _ (Cert.KernelIdeal.Gen.mem_uc Cert.KernelIdeal.main_arg6 (by decide))).trans (Cert.KernelIdeal.Gen.W12_main_arg6 m ρ c),
       (h c _ (Cert.KernelIdeal.Gen.mem_uc Cert.KernelIdeal.main_arg7 (by decide))).trans (Cert.KernelIdeal.Gen.W12_main_arg7 m ρ c),
       (h c _ (Cert.KernelIdeal.Gen.mem_uc Cert.KernelIdeal.main_arg8 (by decide))).trans (Cert.KernelIdeal.Gen.W12_main_arg8 m ρ c),
       (h c _ (Cert.KernelIdeal.Gen.mem_uc Cert.KernelIdeal.main_arg9 (by decide))).trans (Cert.KernelIdeal.Gen.W12_main_arg9 m ρ c),
       (h c _ (Cert.KernelIdeal.Gen.mem_uc Cert.KernelIdeal.main_arg10 (by decide))).trans (Cert.KernelIdeal.Gen.W12_main_arg10 m ρ c),
       (h c _ (Cert.KernelIdeal.Gen.mem_uc Cert.KernelIdeal.main_arg11 (by decide))).trans (Cert.KernelIdeal.Gen.W12_main_arg11 m ρ c),
       (h c _ (Cert.KernelIdeal.Gen.mem_uc Cert.KernelIdeal.main_arg12 (by decide))).trans (Cert.KernelIdeal.Gen.W12_main_arg12 m ρ c),
       (h c _ (Cert.KernelIdeal.Gen.mem_uc Cert.KernelIdeal.main_arg13 (by decide))).trans (Cert.KernelIdeal.Gen.W12_main_arg13 m ρ c),
       (h c _ (Cert.KernelIdeal.Gen.mem_uc Cert.KernelIdeal.main_arg14 (by decide))).trans (Cert.KernelIdeal.Gen.W12_main_arg14 m ρ c),
       (h c _ (Cert.KernelIdeal.Gen.mem_uc Cert.KernelIdeal.main_arg15 (by decide))).trans (Cert.KernelIdeal.Gen.W12_main_arg15 m ρ c)⟩)
      (Cert.KernelIdeal.GenP.run_all m ρ)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v144_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
